-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S128 .f32) (main_arg24 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg20 : FVec F S128 .f32) (main_arg21 : FVec F S128 .f32) (main_arg22 : FVec F S128 .f32) (main_arg23 : FVec F S128 .f32) (main_arg24 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x32 .f32) (main_arg10 : FVec F S32 .f32) (main_arg11 : FVec F S32x1 .f32) (main_arg12 : FVec F S1 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128x128 .f32) (main_arg8 : FVec F S128 .f32) (main_arg9 : FVec F S128x32 .f32) (main_arg10 : FVec F S32 .f32) (main_arg11 : FVec F S32x1 .f32) (main_arg12 : FVec F S1 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32 .f32) (main_arg11 : FVec F S32x1 .f32) (main_arg12 : FVec F S1 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_arg23 : FVec F S128 .f32) (main_arg24 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S2000x128 : Shape := ⟨2, ![2000, 128]⟩
abbrev S50000x1 : Shape := ⟨2, ![50000, 1]⟩
abbrev S2000 : Shape := ⟨1, ![2000]⟩
abbrev S2000x1 : Shape := ⟨2, ![2000, 1]⟩
abbrev S1x32 : Shape := ⟨2, ![1, 32]⟩
abbrev S1x1 : Shape := ⟨2, ![1, 1]⟩
abbrev S2000x32 : Shape := ⟨2, ![2000, 32]⟩

abbrev nBuf : Space → Nat
  | .hbm => 148
  | .vmem => 48
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S32x1, .f32⟩
  | 12 => ⟨S1, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S50000, .i32⟩
  | 30 => ⟨S850000, .i32⟩
  | 31 => ⟨S50000, .i32⟩
  | 32 => ⟨S850000, .i32⟩
  | 33 => ⟨S_, .f32⟩
  | 34 => ⟨S850000, .f32⟩
  | 35 => ⟨S_, .f32⟩
  | 36 => ⟨S50000, .f32⟩
  | 37 => ⟨S850000x1, .i32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S50000x128, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S1x128, .f32⟩
  | 78 => ⟨S1x128, .f32⟩
  | 79 => ⟨S1x128, .f32⟩
  | 80 => ⟨S1x128, .f32⟩
  | 81 => ⟨S50000x128, .f32⟩
  | 82 => ⟨S50000x128, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000x128, .f32⟩
  | 92 => ⟨S850000x1, .f32⟩
  | 93 => ⟨S850000x128, .f32⟩
  | 94 => ⟨S850000x128, .f32⟩
  | 95 => ⟨S_, .f32⟩
  | 96 => ⟨S50000x128, .f32⟩
  | 97 => ⟨S850000x1, .i32⟩
  | 98 => ⟨S50000x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S50000x128, .f32⟩
  | 105 => ⟨S50000x128, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S50000x128, .f32⟩
  | _ => ⟨S50000x128, .f32⟩

abbrev hbmTy0_1 (i : Nat) : BufTy := match i % 128 with
  | 0 => ⟨S_, .f32⟩
  | 1 => ⟨S2000x128, .f32⟩
  | 2 => ⟨S50000x1, .i32⟩
  | 3 => ⟨S2000x128, .f32⟩
  | 4 => ⟨S_, .f32⟩
  | 5 => ⟨S50000, .f32⟩
  | 6 => ⟨S_, .f32⟩
  | 7 => ⟨S2000, .f32⟩
  | 8 => ⟨S50000x1, .i32⟩
  | 9 => ⟨S2000, .f32⟩
  | 10 => ⟨S_, .f32⟩
  | 11 => ⟨S2000, .f32⟩
  | 12 => ⟨S2000, .f32⟩
  | 13 => ⟨S2000x1, .f32⟩
  | 14 => ⟨S2000x128, .f32⟩
  | 15 => ⟨S2000x128, .f32⟩
  | 16 => ⟨S1x32, .f32⟩
  | 17 => ⟨S1x1, .f32⟩
  | 18 => ⟨S2000x1, .f32⟩
  | 19 => ⟨S2000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S2000x128, .f32⟩
  | .local _ .vmem, ⟨43, _⟩ => ⟨S128x32, .f32⟩
  | .local _ .vmem, ⟨44, _⟩ => ⟨S1x32, .f32⟩
  | .local _ .vmem, ⟨45, _⟩ => ⟨S32x1, .f32⟩
  | .local _ .vmem, ⟨46, _⟩ => ⟨S1x1, .f32⟩
  | .local _ .vmem, ⟨47, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_2 : Ref sig .tc := ⟨.hbm, 49, rfl⟩
abbrev main_v20 : Ref sig .tc := ⟨.hbm, 50, rfl⟩
abbrev main_v21 : Ref sig .tc := ⟨.hbm, 51, rfl⟩
abbrev main_c_3 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_7 : Ref sig .tc := ⟨.hbm, 83, rfl⟩
abbrev main_v49 : Ref sig .tc := ⟨.hbm, 84, rfl⟩
abbrev main_v50 : Ref sig .tc := ⟨.hbm, 85, rfl⟩
abbrev main_c_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_10 : Ref sig .tc := ⟨.hbm, 106, rfl⟩
abbrev main_v69 : Ref sig .tc := ⟨.hbm, 107, rfl⟩
abbrev main_v70 : Ref sig .tc := ⟨.hbm, 108, rfl⟩
abbrev main_c_11 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_12 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_13 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_v91 : Ref sig .tc := ⟨.hbm, 133, rfl⟩
abbrev main_cst_15 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_16 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S2000x128 : S_.BroadcastsInDim S2000x128 (![] : Fin 0 → Fin S2000x128.rank)
  bcast_S50000_S50000x1_0 : S50000.BroadcastsInDim S50000x1 (![0] : Fin 1 → Fin S50000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  shapeCasts_S32_S1x32 : S32.ShapeCasts S1x32
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S2000x1_S2000 : S2000x1.ShapeCasts S2000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  dot_S2000x128_S128x32_S2000x32_1_0_0_1_n_n_wf : DotDims.WF S2000x128 S128x32 S2000x32 [1] [0] [0] [1] [] []
  dot_S2000x32_S32x1_S2000x1_1_0_0_1_n_n_wf : DotDims.WF S2000x32 S32x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S2000x128.size a
  hwx6_0 : ∀ i : grid6.Coords, EltTy.bits .f32 = 32 ∨ (Rect.block (s := S2000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x32.size a ≤ S128x32.size a
  hwx6_1 : ∀ i : grid6.Coords, EltTy.bits .f32 = 32 ∨ (Rect.block (s := S128x32) S128x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x1.size a ≤ S32x1.size a
  hwx6_3 : ∀ i : grid6.Coords, EltTy.bits .f32 = 32 ∨ (Rect.block (s := S32x1) S32x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S2000x1.size a
  hwx6_5 : ∀ i : grid6.Coords, EltTy.bits .f32 = 32 ∨ (Rect.block (s := S2000x1) S2000x1.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v67) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v87) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v99) S2000x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S32x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v101) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v102) S2000x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S2000x128 : Shape := ⟨2, ![2000, 128]⟩
abbrev S50000x1 : Shape := ⟨2, ![50000, 1]⟩
abbrev S2000 : Shape := ⟨1, ![2000]⟩
abbrev S2000x1 : Shape := ⟨2, ![2000, 1]⟩
abbrev S2000x32 : Shape := ⟨2, ![2000, 32]⟩
abbrev S1x32 : Shape := ⟨2, ![1, 32]⟩
abbrev S1x1 : Shape := ⟨2, ![1, 1]⟩

abbrev nBuf : Space → Nat
  | .hbm => 264
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S32x1, .f32⟩
  | 12 => ⟨S1, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S128, .f32⟩
  | 23 => ⟨S128, .f32⟩
  | 24 => ⟨S128, .f32⟩
  | 25 => ⟨S1x800000, .i32⟩
  | 26 => ⟨S800000, .i32⟩
  | 27 => ⟨S1x800000, .i32⟩
  | 28 => ⟨S800000, .i32⟩
  | 29 => ⟨S50000x128, .f32⟩
  | 30 => ⟨S50000, .i32⟩
  | 31 => ⟨S850000, .i32⟩
  | 32 => ⟨S50000, .i32⟩
  | 33 => ⟨S850000, .i32⟩
  | 34 => ⟨S_, .f32⟩
  | 35 => ⟨S850000, .f32⟩
  | 36 => ⟨S_, .f32⟩
  | 37 => ⟨S50000, .f32⟩
  | 38 => ⟨S850000x1, .i32⟩
  | 39 => ⟨S50000, .f32⟩
  | 40 => ⟨S50000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S50000, .i32⟩
  | 100 => ⟨S850000, .i32⟩
  | 101 => ⟨S50000, .i32⟩
  | 102 => ⟨S850000, .i32⟩
  | 103 => ⟨S_, .f32⟩
  | 104 => ⟨S850000, .f32⟩
  | 105 => ⟨S_, .f32⟩
  | 106 => ⟨S50000, .f32⟩
  | 107 => ⟨S850000x1, .i32⟩
  | 108 => ⟨S50000, .f32⟩
  | 109 => ⟨S50000, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000, .f32⟩
  | _ => ⟨S50000x128, .f32⟩

abbrev hbmTy0_1 (i : Nat) : BufTy := match i % 128 with
  | 0 => ⟨S850000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x128, .f32⟩
  | 10 => ⟨S850000x1, .f32⟩
  | 11 => ⟨S850000x128, .f32⟩
  | 12 => ⟨S850000x128, .f32⟩
  | 13 => ⟨S_, .f32⟩
  | 14 => ⟨S50000x128, .f32⟩
  | 15 => ⟨S850000x1, .i32⟩
  | 16 => ⟨S50000x128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S50000, .i32⟩
  | 41 => ⟨S850000, .i32⟩
  | 42 => ⟨S50000, .i32⟩
  | 43 => ⟨S850000, .i32⟩
  | 44 => ⟨S_, .f32⟩
  | 45 => ⟨S850000, .f32⟩
  | 46 => ⟨S_, .f32⟩
  | 47 => ⟨S50000, .f32⟩
  | 48 => ⟨S850000x1, .i32⟩
  | 49 => ⟨S50000, .f32⟩
  | 50 => ⟨S50000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000, .f32⟩
  | 69 => ⟨S850000, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .f32⟩
  | 79 => ⟨S850000x1, .f32⟩
  | 80 => ⟨S850000x128, .f32⟩
  | 81 => ⟨S850000x128, .f32⟩
  | 82 => ⟨S_, .f32⟩
  | 83 => ⟨S50000x128, .f32⟩
  | 84 => ⟨S850000x1, .i32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S128, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .f32⟩
  | 109 => ⟨S2000x128, .f32⟩
  | 110 => ⟨S50000x1, .i32⟩
  | 111 => ⟨S2000x128, .f32⟩
  | 112 => ⟨S_, .f32⟩
  | 113 => ⟨S50000, .f32⟩
  | 114 => ⟨S_, .f32⟩
  | 115 => ⟨S2000, .f32⟩
  | 116 => ⟨S50000x1, .i32⟩
  | 117 => ⟨S2000, .f32⟩
  | 118 => ⟨S_, .f32⟩
  | 119 => ⟨S2000, .f32⟩
  | 120 => ⟨S2000, .f32⟩
  | 121 => ⟨S2000x1, .f32⟩
  | 122 => ⟨S2000x128, .f32⟩
  | 123 => ⟨S2000x128, .f32⟩
  | 124 => ⟨S2000x32, .f32⟩
  | 125 => ⟨S1x32, .f32⟩
  | 126 => ⟨S2000x32, .f32⟩
  | 127 => ⟨S2000x32, .f32⟩
  | _ => ⟨S50000x128, .f32⟩

abbrev hbmTy0_2 (i : Nat) : BufTy := match i % 128 with
  | 0 => ⟨S_, .f32⟩
  | 1 => ⟨S2000x32, .f32⟩
  | 2 => ⟨S2000x32, .f32⟩
  | 3 => ⟨S2000x1, .f32⟩
  | 4 => ⟨S1x1, .f32⟩
  | 5 => ⟨S2000x1, .f32⟩
  | 6 => ⟨S2000x1, .f32⟩
  | 7 => ⟨S2000, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_cst_0 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_1 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_2 : Ref sig .tc := ⟨.hbm, 50, rfl⟩
abbrev main_v21 : Ref sig .tc := ⟨.hbm, 51, rfl⟩
abbrev main_v22 : Ref sig .tc := ⟨.hbm, 52, rfl⟩
abbrev main_c_3 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_7 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_call0_cst : Ref sig .tc := ⟨.hbm, 95, rfl⟩
abbrev main_call0_v0 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_cst_9 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_10 : Ref sig .tc := ⟨.hbm, 110, rfl⟩
abbrev main_v71 : Ref sig .tc := ⟨.hbm, 111, rfl⟩
abbrev main_v72 : Ref sig .tc := ⟨.hbm, 112, rfl⟩
abbrev main_c_11 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_12 : Ref sig .tc := ⟨.hbm, 119, rfl⟩
abbrev main_v78 : Ref sig .tc := ⟨.hbm, 120, rfl⟩
abbrev main_v79 : Ref sig .tc := ⟨.hbm, 121, rfl⟩
abbrev main_c_13 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_14 : Ref sig .tc := ⟨.hbm, 129, rfl⟩
abbrev main_v86 : Ref sig .tc := ⟨.hbm, 130, rfl⟩
abbrev main_v87 : Ref sig .tc := ⟨.hbm, 131, rfl⟩
abbrev main_c_15 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_16 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_17 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call1_cst : Ref sig .tc := ⟨.hbm, 164, rfl⟩
abbrev main_call1_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_18 : Ref sig .tc := ⟨.hbm, 172, rfl⟩
abbrev main_v123 : Ref sig .tc := ⟨.hbm, 173, rfl⟩
abbrev main_cst_19 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_20 : Ref sig .tc := ⟨.hbm, 179, rfl⟩
abbrev main_v128 : Ref sig .tc := ⟨.hbm, 180, rfl⟩
abbrev main_v129 : Ref sig .tc := ⟨.hbm, 181, rfl⟩
abbrev main_c_21 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_c_22 : Ref sig .tc := ⟨.hbm, 188, rfl⟩
abbrev main_v135 : Ref sig .tc := ⟨.hbm, 189, rfl⟩
abbrev main_v136 : Ref sig .tc := ⟨.hbm, 190, rfl⟩
abbrev main_c_23 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_24 : Ref sig .tc := ⟨.hbm, 198, rfl⟩
abbrev main_v143 : Ref sig .tc := ⟨.hbm, 199, rfl⟩
abbrev main_v144 : Ref sig .tc := ⟨.hbm, 200, rfl⟩
abbrev main_c_25 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_26 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_27 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_call2_cst : Ref sig .tc := ⟨.hbm, 233, rfl⟩
abbrev main_call2_v0 : Ref sig .tc := ⟨.hbm, 234, rfl⟩
abbrev main_v174 : Ref sig .tc := ⟨.hbm, 235, rfl⟩
abbrev main_cst_28 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_29 : Ref sig .tc := ⟨.hbm, 240, rfl⟩
abbrev main_v178 : Ref sig .tc := ⟨.hbm, 241, rfl⟩
abbrev main_cst_30 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_31 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_call3_cst : Ref sig .tc := ⟨.hbm, 256, rfl⟩
abbrev main_call3_v0 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S2000x128 : S_.BroadcastsInDim S2000x128 (![] : Fin 0 → Fin S2000x128.rank)
  bcast_S50000_S50000x1_0 : S50000.BroadcastsInDim S50000x1 (![0] : Fin 1 → Fin S50000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S32_S1x32_1 : S32.BroadcastsInDim S1x32 (![1] : Fin 1 → Fin S1x32.rank)
  bcast_S1x32_S2000x32_0_1 : S1x32.BroadcastsInDim S2000x32 (![0, 1] : Fin 2 → Fin S2000x32.rank)
  bcast_S_S2000x32 : S_.BroadcastsInDim S2000x32 (![] : Fin 0 → Fin S2000x32.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  shapeCasts_S2000x1_S2000 : S2000x1.ShapeCasts S2000
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S2000x128_S50000x1_S50000x128_1_0_0_1_wf : ScatterDims.WF S2000x128 S50000x1 S50000x128 [1] [0] [0] 1
  scatter_S2000_S50000x1_S50000_n_0_0_1_wf : ScatterDims.WF S2000 S50000x1 S50000 [] [0] [0] 1
  dot_S2000x128_S128x32_S2000x32_1_0_0_1_n_n_wf : DotDims.WF S2000x128 S128x32 S2000x32 [1] [0] [0] [1] [] []
  dot_S2000x32_S32x1_S2000x1_1_0_0_1_n_n_wf : DotDims.WF S2000x32 S32x1 S2000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S2000x128_S50000x1_S50000x128_1_0_0_1 : ScatterDims S2000x128 S50000x1 S50000x128 where
  updateWindowDims := [1]
  insertedWindowDims := [0]
  scatterDimsToOperandDims := [0]
  indexVectorDim := 1
  wf := scatter_S2000x128_S50000x1_S50000x128_1_0_0_1_wf
def scatter_S2000_S50000x1_S50000_n_0_0_1 : ScatterDims S2000 S50000x1 S50000 where
  updateWindowDims := []
  insertedWindowDims := [0]
  scatterDimsToOperandDims := [0]
  indexVectorDim := 1
  wf := scatter_S2000_S50000x1_S50000_n_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x1_S2000x1_1_0_0_1_n_n : DotDims S2000x32 S32x1 S2000x1 where
  lhsContracting := [1]
  rhsContracting := [0]
  lhsNonContracting := [0]
  rhsNonContracting := [1]
  lhsBatch := []
  rhsBatch := []
  wf := dot_S2000x32_S32x1_S2000x1_1_0_0_1_n_n_wf

class Facts : Prop extends Facts₀ where

variable [Facts]
-- ==== Proof.ResultRun.lean ====
/-
  The idealized kernel's run, with its RESULT read.

  @main is thirteen segments: six stretches of host operations and seven kernel regions.  The contents of the
  TensorCore's buffers at each boundary form a fold from the launch memory: a host stretch applies its operations,
  a region replaces its windows' arrays by what its write-backs leave and keeps every other buffer.  Every weakly
  fair execution ends with each unscoped buffer at the last boundary's contents; the generated frame keeps of this
  only that the arguments are unchanged, and here the result buffer (the final reshape of the head's output) is
  kept as well: it ends at the fold's last contents, which the next modules compute.
-/
import proofs.«111725_j67250597921402_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched: the launch over the thirteen segments, the last thread state read
    against the final state, the result at its own buffer and each argument walked back through the fold. -/
theorem run_result : θ_run defs (onTc (τ := τ) (main (F := F))) ⟨m, fun _ => 0, ρ⟩ (fun r => ∀ c : Dev nD,
      r.2.mem ((c.tc : Thread nD τ).loc main_v103) = W13 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v103 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c),
       (h c _ (mem_uc main_arg23 (by decide))).trans (W13_main_arg23 m ρ c),
       (h c _ (mem_uc main_arg24 (by decide))).trans (W13_main_arg24 m ρ c)⟩)

end Cert.KernelIdeal.ResultRun

end
-- ==== Proof.Carried.lean ====
/-
  Buffers that nothing writes keep their contents through the run.

  The contents of the TensorCore's buffers at the thirteen segment boundaries form a fold (W0 … W13).  A host stretch
  changes only the result buffers of its own operations; a region changes only its output windows' arrays (an input
  window's array is read back as it was entered).  Hence each of the twenty-five argument arrays holds its launch
  contents at every boundary, and the three arrays the first stretch computes from the edge list (the sources and the
  targets of the edges with the self loops appended, and the edge weights) are still there at every later boundary up
  to the last stretch that reads them.
-/
import proofs.«111725_j67250597921402_1_alg».proof.Proof.Gen.KernelIdeal.Frame

set_option maxRecDepth 16384

noncomputable section

namespace Cert.KernelIdeal.Carried

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The twenty-five argument arrays, by position. -/
def argRef : Fin 25 → Ref sig .tc :=
  ![main_arg0, main_arg1, main_arg2, main_arg3, main_arg4, main_arg5, main_arg6, main_arg7, main_arg8, main_arg9,
    main_arg10, main_arg11, main_arg12, main_arg13, main_arg14, main_arg15, main_arg16, main_arg17, main_arg18, main_arg19,
    main_arg20, main_arg21, main_arg22, main_arg23, main_arg24]

/-- The three arrays computed from the edge list once and read by every layer: sources, targets, weights. -/
def graphRef : Fin 3 → Ref sig .tc := ![main_v5, main_v7, main_v27]

/-! ## One boundary to the next: the arguments -/

theorem arg_step0 (c : Dev nD) (j : Fin 25) : W1 m ρ c (Proc.devRef .tc (argRef j)) = W0 m ρ c (Proc.devRef .tc (argRef j)) := by
  fin_cases j <;> exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg_step1 (c : Dev nD) (j : Fin 25) : W2 m ρ c (Proc.devRef .tc (argRef j)) = W1 m ρ c (Proc.devRef .tc (argRef j)) := by
  fin_cases j
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
theorem arg_step2 (c : Dev nD) (j : Fin 25) : W3 m ρ c (Proc.devRef .tc (argRef j)) = W2 m ρ c (Proc.devRef .tc (argRef j)) := by
  fin_cases j <;> exact StableHlo.after_of_forall_not_mem (b := Proc.devRef .tc _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg_step3 (c : Dev nD) (j : Fin 25) : W4 m ρ c (Proc.devRef .tc (argRef j)) = W3 m ρ c (Proc.devRef .tc (argRef j)) := by
  fin_cases j <;> exact W4_of_ne m ρ c _ (by decide)
theorem arg_step4 (c : Dev nD) (j : Fin 25) : W5 m ρ c (Proc.devRef .tc (argRef j)) = W4 m ρ c (Proc.devRef .tc (argRef j)) := by
  fin_cases j
  all_goals first
    | exact W5_of_ne m ρ c _ (by decide)
    | exact (W5_arr m ρ c 1).trans (((dat2 (V4 m ρ) c).arrAt_in 1 rfl _).trans (A_eq2 (V4 m ρ) c 1))
theorem arg_step5 (c : Dev nD) (j : Fin 25) : W6 m ρ c (Proc.devRef .tc (argRef j)) = W5 m ρ c (Proc.devRef .tc (argRef j)) := by
  fin_cases j <;> exact StableHlo.after_of_forall_not_mem (b := Proc.devRef .tc _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg_step6 (c : Dev nD) (j : Fin 25) : W7 m ρ c (Proc.devRef .tc (argRef j)) = W6 m ρ c (Proc.devRef .tc (argRef j)) := by
  fin_cases j <;> exact W7_of_ne m ρ c _ (by decide)
theorem arg_step7 (c : Dev nD) (j : Fin 25) : W8 m ρ c (Proc.devRef .tc (argRef j)) = W7 m ρ c (Proc.devRef .tc (argRef j)) := by
  fin_cases j
  all_goals first
    | exact W8_of_ne m ρ c _ (by decide)
    | exact (W8_arr m ρ c 1).trans (((dat4 (V7 m ρ) c).arrAt_in 1 rfl _).trans (A_eq4 (V7 m ρ) c 1))
theorem arg_step8 (c : Dev nD) (j : Fin 25) : W9 m ρ c (Proc.devRef .tc (argRef j)) = W8 m ρ c (Proc.devRef .tc (argRef j)) := by
  fin_cases j <;> exact StableHlo.after_of_forall_not_mem (b := Proc.devRef .tc _) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem arg_step9 (c : Dev nD) (j : Fin 25) : W10 m ρ c (Proc.devRef .tc (argRef j)) = W9 m ρ c (Proc.devRef .tc (argRef j)) := by
  fin_cases j <;> exact W10_of_ne m ρ c _ (by decide)
theorem arg_step10 (c : Dev nD) (j : Fin 25) : W11 m ρ c (Proc.devRef .tc (argRef j)) = W10 m ρ c (Proc.devRef .tc (argRef j)) := by
  fin_cases j <;> exact StableHlo.after_of_forall_not_mem (b := Proc.devRef .tc _) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at each boundary -/

theorem arg_at1 (c : Dev nD) (j : Fin 25) : W1 m ρ c (Proc.devRef .tc (argRef j)) = m ((c : Thread nD τ).loc (argRef j)) := arg_step0 m ρ c j
theorem arg_at2 (c : Dev nD) (j : Fin 25) : W2 m ρ c (Proc.devRef .tc (argRef j)) = m ((c : Thread nD τ).loc (argRef j)) := (arg_step1 m ρ c j).trans (arg_at1 m ρ c j)
theorem arg_at3 (c : Dev nD) (j : Fin 25) : W3 m ρ c (Proc.devRef .tc (argRef j)) = m ((c : Thread nD τ).loc (argRef j)) := (arg_step2 m ρ c j).trans (arg_at2 m ρ c j)
theorem arg_at4 (c : Dev nD) (j : Fin 25) : W4 m ρ c (Proc.devRef .tc (argRef j)) = m ((c : Thread nD τ).loc (argRef j)) := (arg_step3 m ρ c j).trans (arg_at3 m ρ c j)
theorem arg_at5 (c : Dev nD) (j : Fin 25) : W5 m ρ c (Proc.devRef .tc (argRef j)) = m ((c : Thread nD τ).loc (argRef j)) := (arg_step4 m ρ c j).trans (arg_at4 m ρ c j)
theorem arg_at6 (c : Dev nD) (j : Fin 25) : W6 m ρ c (Proc.devRef .tc (argRef j)) = m ((c : Thread nD τ).loc (argRef j)) := (arg_step5 m ρ c j).trans (arg_at5 m ρ c j)
theorem arg_at7 (c : Dev nD) (j : Fin 25) : W7 m ρ c (Proc.devRef .tc (argRef j)) = m ((c : Thread nD τ).loc (argRef j)) := (arg_step6 m ρ c j).trans (arg_at6 m ρ c j)
theorem arg_at8 (c : Dev nD) (j : Fin 25) : W8 m ρ c (Proc.devRef .tc (argRef j)) = m ((c : Thread nD τ).loc (argRef j)) := (arg_step7 m ρ c j).trans (arg_at7 m ρ c j)
theorem arg_at9 (c : Dev nD) (j : Fin 25) : W9 m ρ c (Proc.devRef .tc (argRef j)) = m ((c : Thread nD τ).loc (argRef j)) := (arg_step8 m ρ c j).trans (arg_at8 m ρ c j)
theorem arg_at10 (c : Dev nD) (j : Fin 25) : W10 m ρ c (Proc.devRef .tc (argRef j)) = m ((c : Thread nD τ).loc (argRef j)) := (arg_step9 m ρ c j).trans (arg_at9 m ρ c j)
theorem arg_at11 (c : Dev nD) (j : Fin 25) : W11 m ρ c (Proc.devRef .tc (argRef j)) = m ((c : Thread nD τ).loc (argRef j)) := (arg_step10 m ρ c j).trans (arg_at10 m ρ c j)

/-! ## The graph arrays from the first region's entry to the last layer's stretch -/

theorem graph_step1 (c : Dev nD) (j : Fin 3) : W2 m ρ c (Proc.devRef .tc (graphRef j)) = W1 m ρ c (Proc.devRef .tc (graphRef j)) := by
  fin_cases j <;> exact W2_of_ne m ρ c _ (by decide)
theorem graph_step2 (c : Dev nD) (j : Fin 3) : W3 m ρ c (Proc.devRef .tc (graphRef j)) = W2 m ρ c (Proc.devRef .tc (graphRef j)) := by
  fin_cases j <;> exact StableHlo.after_of_forall_not_mem (b := Proc.devRef .tc _) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem graph_step3 (c : Dev nD) (j : Fin 3) : W4 m ρ c (Proc.devRef .tc (graphRef j)) = W3 m ρ c (Proc.devRef .tc (graphRef j)) := by
  fin_cases j <;> exact W4_of_ne m ρ c _ (by decide)
theorem graph_step4 (c : Dev nD) (j : Fin 3) : W5 m ρ c (Proc.devRef .tc (graphRef j)) = W4 m ρ c (Proc.devRef .tc (graphRef j)) := by
  fin_cases j <;> exact W5_of_ne m ρ c _ (by decide)
theorem graph_step5 (c : Dev nD) (j : Fin 3) : W6 m ρ c (Proc.devRef .tc (graphRef j)) = W5 m ρ c (Proc.devRef .tc (graphRef j)) := by
  fin_cases j <;> exact StableHlo.after_of_forall_not_mem (b := Proc.devRef .tc _) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem graph_step6 (c : Dev nD) (j : Fin 3) : W7 m ρ c (Proc.devRef .tc (graphRef j)) = W6 m ρ c (Proc.devRef .tc (graphRef j)) := by
  fin_cases j <;> exact W7_of_ne m ρ c _ (by decide)
theorem graph_step7 (c : Dev nD) (j : Fin 3) : W8 m ρ c (Proc.devRef .tc (graphRef j)) = W7 m ρ c (Proc.devRef .tc (graphRef j)) := by
  fin_cases j <;> exact W8_of_ne m ρ c _ (by decide)

theorem graph_at2 (c : Dev nD) (j : Fin 3) : W2 m ρ c (Proc.devRef .tc (graphRef j)) = W1 m ρ c (Proc.devRef .tc (graphRef j)) := graph_step1 m ρ c j
theorem graph_at5 (c : Dev nD) (j : Fin 3) : W5 m ρ c (Proc.devRef .tc (graphRef j)) = W1 m ρ c (Proc.devRef .tc (graphRef j)) :=
  (graph_step4 m ρ c j).trans ((graph_step3 m ρ c j).trans ((graph_step2 m ρ c j).trans (graph_step1 m ρ c j)))
theorem graph_at8 (c : Dev nD) (j : Fin 3) : W8 m ρ c (Proc.devRef .tc (graphRef j)) = W1 m ρ c (Proc.devRef .tc (graphRef j)) :=
  (graph_step7 m ρ c j).trans ((graph_step6 m ρ c j).trans ((graph_step5 m ρ c j).trans (graph_at5 m ρ c j)))

end Cert.KernelIdeal.Carried

end
-- ==== Proof.MatmulRows0.lean ====
/-
  The first matrix-product region, read as one array equation.

  The region walks ten grid points.  Point t stages rows 5000·t … 5000·t + 4999 of the [50000,128] left array, the whole
  [128,128] right array, and writes back block t of the [50000,128] output; its body multiplies the staged left block by
  the right array into a zero accumulator.  On extended reals a change of float format is the identity and adding to
  zero changes nothing, so entry (p, q) of a block is the plain sum over k of left(p, k) · right(k, q).  Row r of the
  output lies in block r / 5000, the ten blocks cover the array, and therefore the output array after the region is,
  entry by entry, the product of the two arrays as the region finds them.

  Order of the lemmas: the operand indices of the product's dimension numbers, coordinate by coordinate (`lhs_row` …
  `rhs_col`); the body's arithmetic at an entry (`pay_apply`); the same entry as an entry of the array product once the
  block's rows and columns are placed in the arrays (`block_entry`); the windows' block indices at a grid point
  (`idx_facts`); what a point writes back (`flushed_eq`, which depends on `block_entry` and `idx_facts`); membership in
  a block and the cover (`mem_blk`, `cover`); the array (`array_eq`, `array_eq_sum`).
-/
import proofs.«111725_j67250597921402_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.MatmulRows0

open Cert.KernelIdeal Cert.KernelIdeal.Gen
open Idealize.ShloMosaic Idealize.ShloMosaic.TcCoe Idealize.SL.Sem
open Idealize.ShloMosaic.ValueIdx
open Idealize.ShloMosaic.Pipeline (Dat)

/-- The dimension numbers of the block product: left axis 1 contracts with right axis 0. The operand indices at an
    output index and a contraction position, coordinate by coordinate. -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's arithmetic at entry (p, q) of a block: the product of a [5000,128] block by the [128,128] array,
    accumulated into zeros, is the sum over k of left(p, k) · right(k, q) (a change of float format is the identity on
    extended reals, and adding to zero changes nothing). -/
theorem pay_apply (x0 : Vec Ideal S5000x128 .f32) (x1 : Vec Ideal S128x128 .f32) (p : Fin 5000) (q : Fin 128) :
    (k0_pay1 (F := Ideal) x0 x1 (ix2 p q) : EReal) = ∑ k : Fin 128, (x0 (ix2 p k) : EReal) * x1 (ix2 k q) := by
  unfold k0_pay1
  refine (Ideal.matmul_constant_zero_apply dot_S5000x128_S128x128_S5000x128_1_0_0_1_n_n none
    (truncf .bf16 x0 bitsLt_bf16_f32) (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  rfl

variable (V : (c : Dev nD) → (b : Ref sig .tc) → Buf (Elt Ideal) ((c : Thread nD τ).loc b))

/-- The zero offsets of a rank-2 rectangle, as the body's whole-block accesses spell them. -/
theorem zeros2 : (![0, 0] : Fin 2 → Nat) = fun _ => 0 := funext fun a => by fin_cases a <;> rfl

/-- The product of a [50000,128] array by a [128,128] array: entry (r, q) is the sum over k of left(r, k) · right(k, q). -/
abbrev rowsProd (a : S50000x128.Idx → EReal) (b : S128x128.Idx → EReal) : S50000x128.Idx → EReal :=
  fun i => ∑ k : Fin 128, a (ix2 (i 0) k) * b (ix2 k (i 1))

/-- An entry of the body's block product is the array product's entry at an index `i`, once row `j 0` of the left block
    is row `i 0` of the left array and column `j 1` of the right block is column `i 1` of the right array. -/
theorem block_entry (x0 : Vec Ideal S5000x128 .f32) (x1 : Vec Ideal S128x128 .f32)
    (a : S50000x128.Idx → EReal) (b : S128x128.Idx → EReal) (j : S5000x128.Idx) (i : S50000x128.Idx)
    (h0 : ∀ k : Fin 128, (x0 (ix2 (j 0) k) : EReal) = a (ix2 (i 0) k))
    (h1 : ∀ k : Fin 128, (x1 (ix2 k (j 1)) : EReal) = b (ix2 k (i 1))) :
    (k0_pay1 (F := Ideal) x0 x1 j : EReal) = rowsProd a b i := by
  obtain ⟨p, q, rfl⟩ : ∃ (p : Fin 5000) (q : Fin 128), j = ix2 p q := ⟨j 0, j 1, eq_ix2 j⟩
  rw [pay_apply]
  exact Finset.sum_congr rfl fun k _ => by rw [h0 k, h1 k]

/-- The windows' block indices at a grid point, decided over the ten points: the left window and the output move together
    down the rows (block `t` at point `t`), never along the columns; the right window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 (F := Ideal) V c).flushed 2 t
      = ((cfg0.win 2).blk t).view.read (Elt Ideal) (rowsProd (V c main_arg0) (V c main_arg3)) := by
  show (cfg0.win 2).cut (grid0.coords t) ((dat0 V c).after 2 t) = _
  rw [after0_2]
  unfold out0_2
  rw [View.canon_unit_zero zeros2]
  simp only [View.ld_unit_zero (S := S5000x128) zeros2, View.ld_unit_zero (S := S128x128) zeros2]
  obtain ⟨e0, e1, e2, e3, e4, e5⟩ := idx_facts t
  funext j
  refine block_entry (iblk0 V c 0 t) (iblk0 V c 1 t) (V c main_arg0) (V c main_arg3) j
    (((cfg0.win 2).blk t).view.emb j) (fun k => ?_) (fun k => ?_)
  · show V c main_arg0 (((cfg0.win 0).blk t).view.emb (ix2 (j 0) k)) = V c main_arg0 _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg3 (((cfg0.win 1).blk t).view.emb (ix2 k (j 1))) = V c main_arg3 _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Every index of the output array is in some point's block: row `r` lies in block `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the product of the left array by the right array as the region finds them. -/
theorem array_eq (c : Dev nD) :
    (dat0 (F := Ideal) V c).arrAt 2 cfg0.N = rowsProd (V c main_arg0) (V c main_arg3) :=
  (dat0 (F := Ideal) V c).arrAt_eq_of_cover 2 (rowsProd (V c main_arg0) (V c main_arg3))
    (fun t _ => flushed_eq V c t) cover

/-- The same, entry by entry: for the two arrays named as functions of their indices, entry (r, q) of the output is
    the sum over k of left(r, k) · right(k, q). -/
theorem array_eq_sum (c : Dev nD) (a : S50000x128.Idx → EReal) (b : S128x128.Idx → EReal)
    (ha : V c main_arg0 = a) (hb : V c main_arg3 = b) :
    @Eq (S50000x128.Idx → EReal) ((dat0 (F := Ideal) V c).arrAt 2 cfg0.N)
      (fun i => ∑ k : Fin 128, a (ix2 (i 0) k) * b (ix2 k (i 1))) := by
  subst ha hb
  exact array_eq V c

end Cert.KernelIdeal.MatmulRows0

end
-- ==== Proof.MatmulRows2.lean ====
/-
  The second matrix-product region, read as one array equation.

  The region walks ten grid points.  Point t stages rows 5000·t … 5000·t + 4999 of the [50000,128] left array, the whole
  [128,128] right array, and writes back block t of the [50000,128] output; its body multiplies the staged left block
  (recast to its own shape, which changes nothing) by the right array into a zero accumulator.  On extended reals a
  change of float format is the identity and adding to zero changes nothing, so entry (p, q) of a block is the plain
  sum over k of left(p, k) · right(k, q).  Row r of the
  output lies in block r / 5000, the ten blocks cover the array, and therefore the output array after the region is,
  entry by entry, the product of the two arrays as the region finds them.

  Order of the lemmas: the operand indices of the product's dimension numbers, coordinate by coordinate (`lhs_row` …
  `rhs_col`); the body's arithmetic at an entry (`pay_apply`); the same entry as an entry of the array product once the
  block's rows and columns are placed in the arrays (`block_entry`); the windows' block indices at a grid point
  (`idx_facts`); what a point writes back (`flushed_eq`, which depends on `block_entry` and `idx_facts`); membership in
  a block and the cover (`mem_blk`, `cover`); the array (`array_eq`, `array_eq_sum`).
-/
import proofs.«111725_j67250597921402_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.MatmulRows2

open Cert.KernelIdeal Cert.KernelIdeal.Gen
open Idealize.ShloMosaic Idealize.ShloMosaic.TcCoe Idealize.SL.Sem
open Idealize.ShloMosaic.ValueIdx
open Idealize.ShloMosaic.Pipeline (Dat)

/-- The dimension numbers of the block product: left axis 1 contracts with right axis 0. The operand indices at an
    output index and a contraction position, coordinate by coordinate. -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's arithmetic at entry (p, q) of a block: the product of a [5000,128] block by the [128,128] array,
    accumulated into zeros, is the sum over k of left(p, k) · right(k, q) (a cast to the same shape and a change of float
    format are the identity on extended reals, and adding to zero changes nothing). -/
theorem pay_apply (x0 : Vec Ideal S5000x128 .f32) (x1 : Vec Ideal S128x128 .f32) (p : Fin 5000) (q : Fin 128) :
    (k2_pay1 (F := Ideal) x0 x1 (ix2 p q) : EReal) = ∑ k : Fin 128, (x0 (ix2 p k) : EReal) * x1 (ix2 k q) := by
  unfold k2_pay1
  refine (Ideal.matmul_constant_zero_apply dot_S5000x128_S128x128_S5000x128_1_0_0_1_n_n none
    (truncf .bf16 (shapeCast S5000x128 x0 shapeCasts_S5000x128_S5000x128) bitsLt_bf16_f32)
    (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  show (shapeCast S5000x128 x0 shapeCasts_S5000x128_S5000x128 (ix2 p k) : EReal) * x1 (ix2 k q) = _
  rw [shapeCast_self]

variable (V : (c : Dev nD) → (b : Ref sig .tc) → Buf (Elt Ideal) ((c : Thread nD τ).loc b))

/-- The zero offsets of a rank-2 rectangle, as the body's whole-block accesses spell them. -/
theorem zeros2 : (![0, 0] : Fin 2 → Nat) = fun _ => 0 := funext fun a => by fin_cases a <;> rfl

/-- The product of a [50000,128] array by a [128,128] array: entry (r, q) is the sum over k of left(r, k) · right(k, q). -/
abbrev rowsProd (a : S50000x128.Idx → EReal) (b : S128x128.Idx → EReal) : S50000x128.Idx → EReal :=
  fun i => ∑ k : Fin 128, a (ix2 (i 0) k) * b (ix2 k (i 1))

/-- An entry of the body's block product is the array product's entry at an index `i`, once row `j 0` of the left block
    is row `i 0` of the left array and column `j 1` of the right block is column `i 1` of the right array. -/
theorem block_entry (x0 : Vec Ideal S5000x128 .f32) (x1 : Vec Ideal S128x128 .f32)
    (a : S50000x128.Idx → EReal) (b : S128x128.Idx → EReal) (j : S5000x128.Idx) (i : S50000x128.Idx)
    (h0 : ∀ k : Fin 128, (x0 (ix2 (j 0) k) : EReal) = a (ix2 (i 0) k))
    (h1 : ∀ k : Fin 128, (x1 (ix2 k (j 1)) : EReal) = b (ix2 k (i 1))) :
    (k2_pay1 (F := Ideal) x0 x1 j : EReal) = rowsProd a b i := by
  obtain ⟨p, q, rfl⟩ : ∃ (p : Fin 5000) (q : Fin 128), j = ix2 p q := ⟨j 0, j 1, eq_ix2 j⟩
  rw [pay_apply]
  exact Finset.sum_congr rfl fun k _ => by rw [h0 k, h1 k]

/-- The windows' block indices at a grid point, decided over the ten points: the left window and the output move together
    down the rows (block `t` at point `t`), never along the columns; the right window stays at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed_eq (c : Dev nD) (t : Fin cfg2.N) :
    (dat2 (F := Ideal) V c).flushed 2 t
      = ((cfg2.win 2).blk t).view.read (Elt Ideal) (rowsProd (V c main_v47) (V c main_arg5)) := by
  show (cfg2.win 2).cut (grid2.coords t) ((dat2 V c).after 2 t) = _
  rw [after2_2]
  unfold out2_2
  rw [View.canon_unit_zero zeros2]
  simp only [View.ld_unit_zero (S := S5000x128) zeros2, View.ld_unit_zero (S := S128x128) zeros2]
  obtain ⟨e0, e1, e2, e3, e4, e5⟩ := idx_facts t
  funext j
  refine block_entry (iblk2 V c 0 t) (iblk2 V c 1 t) (V c main_v47) (V c main_arg5) j
    (((cfg2.win 2).blk t).view.emb j) (fun k => ?_) (fun k => ?_)
  · show V c main_v47 (((cfg2.win 0).blk t).view.emb (ix2 (j 0) k)) = V c main_v47 _
    refine congrArg (V c main_v47) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg5 (((cfg2.win 1).blk t).view.emb (ix2 k (j 1))) = V c main_arg5 _
    refine congrArg (V c main_arg5) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the output array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Every index of the output array is in some point's block: row `r` lies in block `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the region: the product of the left array by the right array as the region finds them. -/
theorem array_eq (c : Dev nD) :
    (dat2 (F := Ideal) V c).arrAt 2 cfg2.N = rowsProd (V c main_v47) (V c main_arg5) :=
  (dat2 (F := Ideal) V c).arrAt_eq_of_cover 2 (rowsProd (V c main_v47) (V c main_arg5))
    (fun t _ => flushed_eq V c t) cover

/-- The same, entry by entry: for the two arrays named as functions of their indices, entry (r, q) of the output is
    the sum over k of left(r, k) · right(k, q). -/
theorem array_eq_sum (c : Dev nD) (a : S50000x128.Idx → EReal) (b : S128x128.Idx → EReal)
    (ha : V c main_v47 = a) (hb : V c main_arg5 = b) :
    @Eq (S50000x128.Idx → EReal) ((dat2 (F := Ideal) V c).arrAt 2 cfg2.N)
      (fun i => ∑ k : Fin 128, a (ix2 (i 0) k) * b (ix2 k (i 1))) := by
  subst ha hb
  exact array_eq V c

end Cert.KernelIdeal.MatmulRows2

end
-- ==== Proof.MatmulRows4.lean ====
/-
  The third matrix-product region, read as one array equation.

  The region walks ten grid points.  Point t stages rows 5000·t … 5000·t + 4999 of the [50000,128] left array, the whole
  [128,128] right array, and writes back block t of the [50000,128] output; its body multiplies the staged left block
  (recast to its own shape, which changes nothing) by the right array into a zero accumulator.  On extended reals a
  change of float format is the identity and adding to zero changes nothing, so entry (p, q) of a block is the plain
  sum over k of left(p, k) · right(k, q).  Row r of the
  output lies in block r / 5000, the ten blocks cover the array, and therefore the output array after the region is,
  entry by entry, the product of the two arrays as the region finds them.

  Order of the lemmas: the operand indices of the product's dimension numbers, coordinate by coordinate (`lhs_row` …
  `rhs_col`); the body's arithmetic at an entry (`pay_apply`); the same entry as an entry of the array product once the
  block's rows and columns are placed in the arrays (`block_entry`); the windows' block indices at a grid point
  (`idx_facts`); what a point writes back (`flushed_eq`, which depends on `block_entry` and `idx_facts`); membership in
  a block and the cover (`mem_blk`, `cover`); the array (`array_eq`, `array_eq_sum`).
-/
import proofs.«111725_j67250597921402_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.MatmulRows4

open Cert.KernelIdeal Cert.KernelIdeal.Gen
open Idealize.ShloMosaic Idealize.ShloMosaic.TcCoe Idealize.SL.Sem
open Idealize.ShloMosaic.ValueIdx
open Idealize.ShloMosaic.Pipeline (Dat)

/-- The dimension numbers of the block product: left axis 1 contracts with right axis 0. The operand indices at an
    output index and a contraction position, coordinate by coordinate. -/
theorem lhs_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem rhs_row (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem rhs_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's arithmetic at entry (p, q) of a block: the product of a [5000,128] block by the [128,128] array,
    accumulated into zeros, is the sum over k of left(p, k) · right(k, q) (a cast to the same shape and a change of float
    format are the identity on extended reals, and adding to zero changes nothing). -/
theorem pay_apply (x0 : Vec Ideal S5000x128 .f32) (x1 : Vec Ideal S128x128 .f32) (p : Fin 5000) (q : Fin 128) :
    (k4_pay1 (F := Ideal) x0 x1 (ix2 p q) : EReal) = ∑ k : Fin 128, (x0 (ix2 p k) : EReal) * x1 (ix2 k q) := by
  unfold k4_pay1
  refine (Ideal.matmul_constant_zero_apply dot_S5000x128_S128x128_S5000x128_1_0_0_1_n_n none
    (truncf .bf16 (shapeCast S5000x128 x0 shapeCasts_S5000x128_S5000x128) bitsLt_bf16_f32)
    (truncf .bf16 x1 bitsLt_bf16_f32) (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]
  show (shapeCast S5000x128 x0 shapeCasts_S5000x128_S5000x128 (ix2 p k) : EReal) * x1 (ix2 k q) = _
  rw [shapeCast_self]

variable (V : (c : Dev nD) → (b : Ref sig .tc) → Buf (Elt Ideal) ((c : Thread nD τ).loc b))

/-- The zero offsets of a rank-2 rectangle, as the body's whole-block accesses spell them. -/
theorem zeros2 : (![0, 0] : Fin 2 → Nat) = fun _ => 0 := funext fun a => by fin_cases a <;> rfl

/-- The product of a [50000,128] array by a [128,128] array: entry (r, q) is the sum over k of left(r, k) · right(k, q). -/
abbrev rowsProd (a : S50000x128.Idx → EReal) (b : S128x128.Idx → EReal) : S50000x128.Idx → EReal :=
  fun i => ∑ k : Fin 128, a (ix2 (i 0) k) * b (ix2 k (i 1))

/-- An entry of the body's block product is the array product's entry at an index `i`, once row `j 0` of the left block
    is row `i 0` of the left array and column `j 1` of the right block is column `i 1` of the right array. -/
theorem block_entry (x0 : Vec Ideal S5000x128 .f32) (x1 : Vec Ideal S128x128 .f32)
    (a : S50000x128.Idx → EReal) (b : S128x128.Idx → EReal) (j : S5000x128.Idx) (i : S50000x128.Idx)
    (h0 : ∀ k : Fin 128, (x0 (ix2 (j 0) k) : EReal) = a (ix2 (i 0) k))
    (h1 : ∀ k : Fin 128, (x1 (ix2 k (j 1)) : EReal) = b (ix2 k (i 1))) :
    (k4_pay1 (F := Ideal) x0 x1 j : EReal) = rowsProd a b i := by
  obtain ⟨p, q, rfl⟩ : ∃ (p : Fin 5000) (q : Fin 128), j = ix2 p q := ⟨j 0, j 1, eq_ix2 j⟩
  rw [pay_apply]
  exact Finset.sum_congr rfl fun k _ => by rw [h0 k, h1 k]

/-- The windows' block indices at a grid point, decided over the ten points: the left window and the output move together
    down the rows (block `t` at point `t`), never along the columns; the right window stays at its one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region finds them. -/
theorem flushed_eq (c : Dev nD) (t : Fin cfg4.N) :
    (dat4 (F := Ideal) V c).flushed 2 t
      = ((cfg4.win 2).blk t).view.read (Elt Ideal) (rowsProd (V c main_v67) (V c main_arg7)) := by
  show (cfg4.win 2).cut (grid4.coords t) ((dat4 V c).after 2 t) = _
  rw [after4_2]
  unfold out4_2
  rw [View.canon_unit_zero zeros2]
  simp only [View.ld_unit_zero (S := S5000x128) zeros2, View.ld_unit_zero (S := S128x128) zeros2]
  obtain ⟨e0, e1, e2, e3, e4, e5⟩ := idx_facts t
  funext j
  refine block_entry (iblk4 V c 0 t) (iblk4 V c 1 t) (V c main_v67) (V c main_arg7) j
    (((cfg4.win 2).blk t).view.emb j) (fun k => ?_) (fun k => ?_)
  · show V c main_v67 (((cfg4.win 0).blk t).view.emb (ix2 (j 0) k)) = V c main_v67 _
    refine congrArg (V c main_v67) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · show V c main_arg7 (((cfg4.win 1).blk t).view.emb (ix2 k (j 1))) = V c main_arg7 _
    refine congrArg (V c main_arg7) (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An index of the output array is in point `t`'s block iff each coordinate is in the block's range on its axis. -/
theorem mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v68).slice (win4_2.rect t)).set ↔ _
  rw [View.set_slice_whole, Rect.mem_set_unit]
  exact Iff.rfl

/-- Every index of the output array is in some point's block: row `r` lies in block `r / 5000`. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0, e1, e2, e3, e4, e5⟩ := idx_facts t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- The output array after the region: the product of the left array by the right array as the region finds them. -/
theorem array_eq (c : Dev nD) :
    (dat4 (F := Ideal) V c).arrAt 2 cfg4.N = rowsProd (V c main_v67) (V c main_arg7) :=
  (dat4 (F := Ideal) V c).arrAt_eq_of_cover 2 (rowsProd (V c main_v67) (V c main_arg7))
    (fun t _ => flushed_eq V c t) cover

/-- The same, entry by entry: for the two arrays named as functions of their indices, entry (r, q) of the output is
    the sum over k of left(r, k) · right(k, q). -/
theorem array_eq_sum (c : Dev nD) (a : S50000x128.Idx → EReal) (b : S128x128.Idx → EReal)
    (ha : V c main_v67 = a) (hb : V c main_arg7 = b) :
    @Eq (S50000x128.Idx → EReal) ((dat4 (F := Ideal) V c).arrAt 2 cfg4.N)
      (fun i => ∑ k : Fin 128, a (ix2 (i 0) k) * b (ix2 k (i 1))) := by
  subst ha hb
  exact array_eq V c

end Cert.KernelIdeal.MatmulRows4

end
-- ==== Proof.NormRelu1.lean ====
/-
  The bias, batch-normalisation and rectification region number 1 of the network, read as one function of the arrays it finds.

  The region walks ten blocks of 5000 rows of a [50000, 128] array. At each block it adds a bias row, subtracts a mean row,
  multiplies by the reciprocal square root of a variance row shifted by a small constant, multiplies by a gain row, adds a
  shift row and takes the maximum with zero; each [1, 128] parameter row is spread over the 5000 rows of the block. Below:
  the entry-wise function, the block's value at a row and column, each window's block read where it sits in its array, the
  block each point writes back as a block of one whole-array function, the cover of the array by the ten blocks, and the
  array the region leaves.
-/
import proofs.«111725_j67250597921402_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.NormRelu1

open Cert.KernelIdeal Cert.KernelIdeal.Gen Idealize.ShloMosaic Idealize.ShloMosaic.TcCoe Idealize.SL.Sem
open Idealize.ShloMosaic.Pipeline (Dat)
open Idealize.ShloMosaic.ValueIdx

/-- One entry: the input x with the bias b added and the mean mn subtracted, times the reciprocal square root of the variance v
    plus the constant, times the gain g, plus the shift be, and the maximum of that with zero. -/
abbrev entry (x b g be mn v : Ideal .f32) : Ideal .f32 :=
  FloatOps.maximumf (FloatOps.addf (FloatOps.mulf (FloatOps.mulf (FloatOps.subf (FloatOps.addf x b) mn)
    (FloatOps.rsqrt (FloatOps.addf v (Scalar.ofBits .f32 0x3727C5AC#32)))) g) be) (Scalar.ofBits .f32 0x00000000#32)

/-- The whole array: entry (r, k) is `entry` of the input at (r, k) and of the five parameter rows at column k. -/
abbrev G (x : S50000x128.Idx → Ideal .f32) (b g be mn v : S1x128.Idx → Ideal .f32) : S50000x128.Idx → Ideal .f32 := fun i =>
  entry (x i) (b (ix2 (0 : Fin 1) (i 1))) (g (ix2 (0 : Fin 1) (i 1))) (be (ix2 (0 : Fin 1) (i 1)))
    (mn (ix2 (0 : Fin 1) (i 1))) (v (ix2 (0 : Fin 1) (i 1)))

/-- Entries of equal arguments are equal. -/
theorem entry_congr {x x' b b' g g' be be' mn mn' v v' : Ideal .f32} (hx : x = x') (hb : b = b') (hg : g = g')
    (hbe : be = be') (hmn : mn = mn') (hv : v = v') : entry x b g be mn v = entry x' b' g' be' mn' v' := by
  subst hx hb hg hbe hmn hv; rfl

/-- The block's value at row p and column q: every operation is entry-wise, and a [1, 128] row spread over the 5000 rows reads
    the row at column q. The arguments are the input block, the bias, the variance, the mean, the gain and the shift rows. -/
theorem pay_apply (x : FVec Ideal S5000x128 .f32) (b v mn g be : FVec Ideal S1x128 .f32) (p : Fin 5000) (q : Fin 128) :
    k1_pay1 x b v mn g be (ix2 p q)
      = entry (x (ix2 p q)) (b (ix2 (0 : Fin 1) q)) (g (ix2 (0 : Fin 1) q)) (be (ix2 (0 : Fin 1) q))
          (mn (ix2 (0 : Fin 1) q)) (v (ix2 (0 : Fin 1) q)) := by
  have hb : ∀ r : FVec Ideal S1x128 .f32,
      broadcastTo S5000x128 r broadcasts_S1x128_S5000x128 (ix2 p q) = r (ix2 (0 : Fin 1) q) :=
    fun r => broadcastTo_1b_ab_apply r _ p q
  unfold k1_pay1
  simp only [shapeCast_self]
  show FloatOps.maximumf (FloatOps.addf (FloatOps.mulf (FloatOps.mulf (FloatOps.subf (FloatOps.addf (x (ix2 p q))
      (broadcastTo S5000x128 b broadcasts_S1x128_S5000x128 (ix2 p q)))
      (broadcastTo S5000x128 mn broadcasts_S1x128_S5000x128 (ix2 p q)))
      (broadcastTo S5000x128 (rsqrt (addf v (broadcast S1x128 (Scalar.ofBits .f32 0x3727C5AC#32))))
        broadcasts_S1x128_S5000x128 (ix2 p q)))
      (broadcastTo S5000x128 g broadcasts_S1x128_S5000x128 (ix2 p q)))
      (broadcastTo S5000x128 be broadcasts_S1x128_S5000x128 (ix2 p q))) (Scalar.ofBits .f32 0x00000000#32) = _
  rw [hb, hb, hb, hb, hb]
  rfl

theorem zero_offsets : (![0, 0] : Fin 2 → Nat) = fun _ => 0 := funext fun a => by fin_cases a <;> rfl

/-! The block indices, over the ten points: the input and the output move together, one block of rows per point; each
    parameter row stays at block (0, 0). -/

theorem in_facts : ∀ t : Fin cfg1.N, win1_0.index t (0 : Fin 2) = t.val ∧ win1_0.index t (1 : Fin 2) = 0 :=
  (by decide +kernel : ∀ t : Fin grid1.N, _)
theorem row_facts1 : ∀ t : Fin cfg1.N, win1_1.index t (0 : Fin 2) = 0 ∧ win1_1.index t (1 : Fin 2) = 0 :=
  (by decide +kernel : ∀ t : Fin grid1.N, _)
theorem row_facts2 : ∀ t : Fin cfg1.N, win1_2.index t (0 : Fin 2) = 0 ∧ win1_2.index t (1 : Fin 2) = 0 :=
  (by decide +kernel : ∀ t : Fin grid1.N, _)
theorem row_facts3 : ∀ t : Fin cfg1.N, win1_3.index t (0 : Fin 2) = 0 ∧ win1_3.index t (1 : Fin 2) = 0 :=
  (by decide +kernel : ∀ t : Fin grid1.N, _)
theorem row_facts4 : ∀ t : Fin cfg1.N, win1_4.index t (0 : Fin 2) = 0 ∧ win1_4.index t (1 : Fin 2) = 0 :=
  (by decide +kernel : ∀ t : Fin grid1.N, _)
theorem row_facts5 : ∀ t : Fin cfg1.N, win1_5.index t (0 : Fin 2) = 0 ∧ win1_5.index t (1 : Fin 2) = 0 :=
  (by decide +kernel : ∀ t : Fin grid1.N, _)
theorem out_facts : ∀ t : Fin cfg1.N, win1_6.index t (0 : Fin 2) = t.val ∧ win1_6.index t (1 : Fin 2) = 0 :=
  (by decide +kernel : ∀ t : Fin grid1.N, _)

theorem point_lt (t : Fin cfg1.N) : t.val < 10 := by
  have h : t.val < grid1.N := t.isLt
  rw [N_1] at h; exact h

/-- Row p of block t is row 5000·t + p of the array. -/
abbrev rowOf (t : Fin cfg1.N) (p : Fin 5000) : Fin 50000 :=
  ⟨t.val * 5000 + p.val, by have := point_lt t; have := p.isLt; omega⟩

variable (V : (c : Dev nD) → (b : Ref sig .tc) → Buf (Elt Ideal) ((c : Thread nD τ).loc b))

/-! Each window's block read where it sits in its array: a block's coordinate on an axis is the block index times the block
    size plus the coordinate inside the block. -/

/-- The input block at point t, at (p, q), is the input array at row 5000·t + p, column q. -/
theorem in_apply (c : Dev nD) (t : Fin cfg1.N) (p : Fin 5000) (q : Fin 128) :
    iblk1 V c 0 t (ix2 p q) = V c main_v41 (ix2 (rowOf t p) q) := by
  obtain ⟨e0, e1⟩ := in_facts t
  show V c main_v41 (((cfg1.win 0).blk t).view.emb (ix2 p q)) = V c main_v41 (ix2 (rowOf t p) q)
  refine congrArg (V c main_v41) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The bias row's block at any point is the row itself: its block index is (0, 0). -/
theorem row1_apply (c : Dev nD) (t : Fin cfg1.N) (q : Fin 128) :
    iblk1 V c 1 t (ix2 (0 : Fin 1) q) = V c main_v42 (ix2 (0 : Fin 1) q) := by
  obtain ⟨e0, e1⟩ := row_facts1 t
  show V c main_v42 (((cfg1.win 1).blk t).view.emb (ix2 (0 : Fin 1) q)) = V c main_v42 (ix2 (0 : Fin 1) q)
  refine congrArg (V c main_v42) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The gain row's block at any point is the row itself: its block index is (0, 0). -/
theorem row2_apply (c : Dev nD) (t : Fin cfg1.N) (q : Fin 128) :
    iblk1 V c 2 t (ix2 (0 : Fin 1) q) = V c main_v43 (ix2 (0 : Fin 1) q) := by
  obtain ⟨e0, e1⟩ := row_facts2 t
  show V c main_v43 (((cfg1.win 2).blk t).view.emb (ix2 (0 : Fin 1) q)) = V c main_v43 (ix2 (0 : Fin 1) q)
  refine congrArg (V c main_v43) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The shift row's block at any point is the row itself: its block index is (0, 0). -/
theorem row3_apply (c : Dev nD) (t : Fin cfg1.N) (q : Fin 128) :
    iblk1 V c 3 t (ix2 (0 : Fin 1) q) = V c main_v44 (ix2 (0 : Fin 1) q) := by
  obtain ⟨e0, e1⟩ := row_facts3 t
  show V c main_v44 (((cfg1.win 3).blk t).view.emb (ix2 (0 : Fin 1) q)) = V c main_v44 (ix2 (0 : Fin 1) q)
  refine congrArg (V c main_v44) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The mean row's block at any point is the row itself: its block index is (0, 0). -/
theorem row4_apply (c : Dev nD) (t : Fin cfg1.N) (q : Fin 128) :
    iblk1 V c 4 t (ix2 (0 : Fin 1) q) = V c main_v45 (ix2 (0 : Fin 1) q) := by
  obtain ⟨e0, e1⟩ := row_facts4 t
  show V c main_v45 (((cfg1.win 4).blk t).view.emb (ix2 (0 : Fin 1) q)) = V c main_v45 (ix2 (0 : Fin 1) q)
  refine congrArg (V c main_v45) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The variance row's block at any point is the row itself: its block index is (0, 0). -/
theorem row5_apply (c : Dev nD) (t : Fin cfg1.N) (q : Fin 128) :
    iblk1 V c 5 t (ix2 (0 : Fin 1) q) = V c main_v46 (ix2 (0 : Fin 1) q) := by
  obtain ⟨e0, e1⟩ := row_facts5 t
  show V c main_v46 (((cfg1.win 5).blk t).view.emb (ix2 (0 : Fin 1) q)) = V c main_v46 (ix2 (0 : Fin 1) q)
  refine congrArg (V c main_v46) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- An array read through the output window's block at point t, at (p, q), is the array at row 5000·t + p, column q. -/
theorem out_apply (t : Fin cfg1.N) (A : S50000x128.Idx → Ideal .f32) (p : Fin 5000) (q : Fin 128) :
    ((cfg1.win 6).blk t).view.read (Elt Ideal) A (ix2 p q) = A (ix2 (rowOf t p) q) := by
  obtain ⟨e0, e1⟩ := out_facts t
  show A (((cfg1.win 6).blk t).view.emb (ix2 p q)) = A (ix2 (rowOf t p) q)
  refine congrArg A (funext fun a => Fin.ext ?_)
  match a with
  | ⟨0, _⟩ => show win1_6.index t (0 : Fin 2) * 5000 + 1 * p.val = t.val * 5000 + p.val; omega
  | ⟨1, _⟩ => show win1_6.index t (1 : Fin 2) * 128 + 1 * q.val = q.val; omega

/-- What point t writes back is block t of `G` of the arrays the region finds. -/
theorem flushed_eq (c : Dev nD) (t : Fin cfg1.N) :
    (dat1 (F := Ideal) V c).flushed 6 t = ((cfg1.win 6).blk t).view.read (Elt Ideal)
      (G (V c main_v41) (V c main_v42) (V c main_v43) (V c main_v44) (V c main_v45) (V c main_v46)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 5 t) (iblk1 V c 4 t) (iblk1 V c 2 t) (iblk1 V c 3 t) p q).trans ?_
  refine (entry_congr (in_apply V c t p q) (row1_apply V c t q) (row2_apply V c t q) (row3_apply V c t q)
    (row4_apply V c t q) (row5_apply V c t q)).trans ?_
  exact (out_apply t (G (V c main_v41) (V c main_v42) (V c main_v43) (V c main_v44) (V c main_v45) (V c main_v46)) p q).symm

/-- An index of the array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v47).slice (win1_6.rect t)).set ↔ _
  rw [View.set_slice_whole, Rect.mem_set_unit]
  exact Iff.rfl

/-- Every index is in the block of the point that holds its row: row r is in block r / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 10 := N_1
  have ht : (i 0).val / 5000 < cfg1.N := by show (i 0).val / 5000 < grid1.N; omega
  obtain ⟨e0, e1⟩ := out_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e1]; omega

/-- The array the region leaves in its output: every entry is `entry` of the input entry and of its column's five parameters. -/
theorem array_eq (c : Dev nD) :
    ((dat1 (F := Ideal) V c).arrAt 6 cfg1.N : S50000x128.Idx → EReal)
      = fun i : S50000x128.Idx => FloatOps.maximumf (F := Ideal) (FloatOps.addf (FloatOps.mulf (FloatOps.mulf (FloatOps.subf (FloatOps.addf (V c main_v41 i) (V c main_v42 (ValueIdx.ix2 (0 : Fin 1) (i 1)))) (V c main_v45 (ValueIdx.ix2 (0 : Fin 1) (i 1)))) (FloatOps.rsqrt (FloatOps.addf (V c main_v46 (ValueIdx.ix2 (0 : Fin 1) (i 1))) (Scalar.ofBits .f32 0x3727C5AC#32)))) (V c main_v43 (ValueIdx.ix2 (0 : Fin 1) (i 1)))) (V c main_v44 (ValueIdx.ix2 (0 : Fin 1) (i 1)))) (Scalar.ofBits .f32 0x00000000#32) :=
  (dat1 (F := Ideal) V c).arrAt_eq_of_cover 6
    (G (V c main_v41) (V c main_v42) (V c main_v43) (V c main_v44) (V c main_v45) (V c main_v46))
    (fun t _ => flushed_eq V c t) cover

end Cert.KernelIdeal.NormRelu1

end
-- ==== Proof.NormRelu3.lean ====
/-
  The bias, batch-normalisation and rectification region number 3 of the network, read as one function of the arrays it finds.

  The region walks ten blocks of 5000 rows of a [50000, 128] array. At each block it adds a bias row, subtracts a mean row,
  multiplies by the reciprocal square root of a variance row shifted by a small constant, multiplies by a gain row, adds a
  shift row and takes the maximum with zero; each [1, 128] parameter row is spread over the 5000 rows of the block. Below:
  the entry-wise function, the block's value at a row and column, each window's block read where it sits in its array, the
  block each point writes back as a block of one whole-array function, the cover of the array by the ten blocks, and the
  array the region leaves.
-/
import proofs.«111725_j67250597921402_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.NormRelu3

open Cert.KernelIdeal Cert.KernelIdeal.Gen Idealize.ShloMosaic Idealize.ShloMosaic.TcCoe Idealize.SL.Sem
open Idealize.ShloMosaic.Pipeline (Dat)
open Idealize.ShloMosaic.ValueIdx

/-- One entry: the input x with the bias b added and the mean mn subtracted, times the reciprocal square root of the variance v
    plus the constant, times the gain g, plus the shift be, and the maximum of that with zero. -/
abbrev entry (x b g be mn v : Ideal .f32) : Ideal .f32 :=
  FloatOps.maximumf (FloatOps.addf (FloatOps.mulf (FloatOps.mulf (FloatOps.subf (FloatOps.addf x b) mn)
    (FloatOps.rsqrt (FloatOps.addf v (Scalar.ofBits .f32 0x3727C5AC#32)))) g) be) (Scalar.ofBits .f32 0x00000000#32)

/-- The whole array: entry (r, k) is `entry` of the input at (r, k) and of the five parameter rows at column k. -/
abbrev G (x : S50000x128.Idx → Ideal .f32) (b g be mn v : S1x128.Idx → Ideal .f32) : S50000x128.Idx → Ideal .f32 := fun i =>
  entry (x i) (b (ix2 (0 : Fin 1) (i 1))) (g (ix2 (0 : Fin 1) (i 1))) (be (ix2 (0 : Fin 1) (i 1)))
    (mn (ix2 (0 : Fin 1) (i 1))) (v (ix2 (0 : Fin 1) (i 1)))

/-- Entries of equal arguments are equal. -/
theorem entry_congr {x x' b b' g g' be be' mn mn' v v' : Ideal .f32} (hx : x = x') (hb : b = b') (hg : g = g')
    (hbe : be = be') (hmn : mn = mn') (hv : v = v') : entry x b g be mn v = entry x' b' g' be' mn' v' := by
  subst hx hb hg hbe hmn hv; rfl

/-- The block's value at row p and column q: every operation is entry-wise, and a [1, 128] row spread over the 5000 rows reads
    the row at column q. The arguments are the input block, the bias, the variance, the mean, the gain and the shift rows. -/
theorem pay_apply (x : FVec Ideal S5000x128 .f32) (b v mn g be : FVec Ideal S1x128 .f32) (p : Fin 5000) (q : Fin 128) :
    k3_pay1 x b v mn g be (ix2 p q)
      = entry (x (ix2 p q)) (b (ix2 (0 : Fin 1) q)) (g (ix2 (0 : Fin 1) q)) (be (ix2 (0 : Fin 1) q))
          (mn (ix2 (0 : Fin 1) q)) (v (ix2 (0 : Fin 1) q)) := by
  have hb : ∀ r : FVec Ideal S1x128 .f32,
      broadcastTo S5000x128 r broadcasts_S1x128_S5000x128 (ix2 p q) = r (ix2 (0 : Fin 1) q) :=
    fun r => broadcastTo_1b_ab_apply r _ p q
  unfold k3_pay1
  simp only [shapeCast_self]
  show FloatOps.maximumf (FloatOps.addf (FloatOps.mulf (FloatOps.mulf (FloatOps.subf (FloatOps.addf (x (ix2 p q))
      (broadcastTo S5000x128 b broadcasts_S1x128_S5000x128 (ix2 p q)))
      (broadcastTo S5000x128 mn broadcasts_S1x128_S5000x128 (ix2 p q)))
      (broadcastTo S5000x128 (rsqrt (addf v (broadcast S1x128 (Scalar.ofBits .f32 0x3727C5AC#32))))
        broadcasts_S1x128_S5000x128 (ix2 p q)))
      (broadcastTo S5000x128 g broadcasts_S1x128_S5000x128 (ix2 p q)))
      (broadcastTo S5000x128 be broadcasts_S1x128_S5000x128 (ix2 p q))) (Scalar.ofBits .f32 0x00000000#32) = _
  rw [hb, hb, hb, hb, hb]
  rfl

theorem zero_offsets : (![0, 0] : Fin 2 → Nat) = fun _ => 0 := funext fun a => by fin_cases a <;> rfl

/-! The block indices, over the ten points: the input and the output move together, one block of rows per point; each
    parameter row stays at block (0, 0). -/

theorem in_facts : ∀ t : Fin cfg3.N, win3_0.index t (0 : Fin 2) = t.val ∧ win3_0.index t (1 : Fin 2) = 0 :=
  (by decide +kernel : ∀ t : Fin grid3.N, _)
theorem row_facts1 : ∀ t : Fin cfg3.N, win3_1.index t (0 : Fin 2) = 0 ∧ win3_1.index t (1 : Fin 2) = 0 :=
  (by decide +kernel : ∀ t : Fin grid3.N, _)
theorem row_facts2 : ∀ t : Fin cfg3.N, win3_2.index t (0 : Fin 2) = 0 ∧ win3_2.index t (1 : Fin 2) = 0 :=
  (by decide +kernel : ∀ t : Fin grid3.N, _)
theorem row_facts3 : ∀ t : Fin cfg3.N, win3_3.index t (0 : Fin 2) = 0 ∧ win3_3.index t (1 : Fin 2) = 0 :=
  (by decide +kernel : ∀ t : Fin grid3.N, _)
theorem row_facts4 : ∀ t : Fin cfg3.N, win3_4.index t (0 : Fin 2) = 0 ∧ win3_4.index t (1 : Fin 2) = 0 :=
  (by decide +kernel : ∀ t : Fin grid3.N, _)
theorem row_facts5 : ∀ t : Fin cfg3.N, win3_5.index t (0 : Fin 2) = 0 ∧ win3_5.index t (1 : Fin 2) = 0 :=
  (by decide +kernel : ∀ t : Fin grid3.N, _)
theorem out_facts : ∀ t : Fin cfg3.N, win3_6.index t (0 : Fin 2) = t.val ∧ win3_6.index t (1 : Fin 2) = 0 :=
  (by decide +kernel : ∀ t : Fin grid3.N, _)

theorem point_lt (t : Fin cfg3.N) : t.val < 10 := by
  have h : t.val < grid3.N := t.isLt
  rw [N_3] at h; exact h

/-- Row p of block t is row 5000·t + p of the array. -/
abbrev rowOf (t : Fin cfg3.N) (p : Fin 5000) : Fin 50000 :=
  ⟨t.val * 5000 + p.val, by have := point_lt t; have := p.isLt; omega⟩

variable (V : (c : Dev nD) → (b : Ref sig .tc) → Buf (Elt Ideal) ((c : Thread nD τ).loc b))

/-! Each window's block read where it sits in its array: a block's coordinate on an axis is the block index times the block
    size plus the coordinate inside the block. -/

/-- The input block at point t, at (p, q), is the input array at row 5000·t + p, column q. -/
theorem in_apply (c : Dev nD) (t : Fin cfg3.N) (p : Fin 5000) (q : Fin 128) :
    iblk3 V c 0 t (ix2 p q) = V c main_v61 (ix2 (rowOf t p) q) := by
  obtain ⟨e0, e1⟩ := in_facts t
  show V c main_v61 (((cfg3.win 0).blk t).view.emb (ix2 p q)) = V c main_v61 (ix2 (rowOf t p) q)
  refine congrArg (V c main_v61) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- The bias row's block at any point is the row itself: its block index is (0, 0). -/
theorem row1_apply (c : Dev nD) (t : Fin cfg3.N) (q : Fin 128) :
    iblk3 V c 1 t (ix2 (0 : Fin 1) q) = V c main_v62 (ix2 (0 : Fin 1) q) := by
  obtain ⟨e0, e1⟩ := row_facts1 t
  show V c main_v62 (((cfg3.win 1).blk t).view.emb (ix2 (0 : Fin 1) q)) = V c main_v62 (ix2 (0 : Fin 1) q)
  refine congrArg (V c main_v62) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- The gain row's block at any point is the row itself: its block index is (0, 0). -/
theorem row2_apply (c : Dev nD) (t : Fin cfg3.N) (q : Fin 128) :
    iblk3 V c 2 t (ix2 (0 : Fin 1) q) = V c main_v63 (ix2 (0 : Fin 1) q) := by
  obtain ⟨e0, e1⟩ := row_facts2 t
  show V c main_v63 (((cfg3.win 2).blk t).view.emb (ix2 (0 : Fin 1) q)) = V c main_v63 (ix2 (0 : Fin 1) q)
  refine congrArg (V c main_v63) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- The shift row's block at any point is the row itself: its block index is (0, 0). -/
theorem row3_apply (c : Dev nD) (t : Fin cfg3.N) (q : Fin 128) :
    iblk3 V c 3 t (ix2 (0 : Fin 1) q) = V c main_v64 (ix2 (0 : Fin 1) q) := by
  obtain ⟨e0, e1⟩ := row_facts3 t
  show V c main_v64 (((cfg3.win 3).blk t).view.emb (ix2 (0 : Fin 1) q)) = V c main_v64 (ix2 (0 : Fin 1) q)
  refine congrArg (V c main_v64) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The mean row's block at any point is the row itself: its block index is (0, 0). -/
theorem row4_apply (c : Dev nD) (t : Fin cfg3.N) (q : Fin 128) :
    iblk3 V c 4 t (ix2 (0 : Fin 1) q) = V c main_v65 (ix2 (0 : Fin 1) q) := by
  obtain ⟨e0, e1⟩ := row_facts4 t
  show V c main_v65 (((cfg3.win 4).blk t).view.emb (ix2 (0 : Fin 1) q)) = V c main_v65 (ix2 (0 : Fin 1) q)
  refine congrArg (V c main_v65) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- The variance row's block at any point is the row itself: its block index is (0, 0). -/
theorem row5_apply (c : Dev nD) (t : Fin cfg3.N) (q : Fin 128) :
    iblk3 V c 5 t (ix2 (0 : Fin 1) q) = V c main_v66 (ix2 (0 : Fin 1) q) := by
  obtain ⟨e0, e1⟩ := row_facts5 t
  show V c main_v66 (((cfg3.win 5).blk t).view.emb (ix2 (0 : Fin 1) q)) = V c main_v66 (ix2 (0 : Fin 1) q)
  refine congrArg (V c main_v66) (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

/-- An array read through the output window's block at point t, at (p, q), is the array at row 5000·t + p, column q. -/
theorem out_apply (t : Fin cfg3.N) (A : S50000x128.Idx → Ideal .f32) (p : Fin 5000) (q : Fin 128) :
    ((cfg3.win 6).blk t).view.read (Elt Ideal) A (ix2 p q) = A (ix2 (rowOf t p) q) := by
  obtain ⟨e0, e1⟩ := out_facts t
  show A (((cfg3.win 6).blk t).view.emb (ix2 p q)) = A (ix2 (rowOf t p) q)
  refine congrArg A (funext fun a => Fin.ext ?_)
  match a with
  | ⟨0, _⟩ => show win3_6.index t (0 : Fin 2) * 5000 + 1 * p.val = t.val * 5000 + p.val; omega
  | ⟨1, _⟩ => show win3_6.index t (1 : Fin 2) * 128 + 1 * q.val = q.val; omega

/-- What point t writes back is block t of `G` of the arrays the region finds. -/
theorem flushed_eq (c : Dev nD) (t : Fin cfg3.N) :
    (dat3 (F := Ideal) V c).flushed 6 t = ((cfg3.win 6).blk t).view.read (Elt Ideal)
      (G (V c main_v61) (V c main_v62) (V c main_v63) (V c main_v64) (V c main_v65) (V c main_v66)) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (pay_apply (iblk3 V c 0 t) (iblk3 V c 1 t) (iblk3 V c 5 t) (iblk3 V c 4 t) (iblk3 V c 2 t) (iblk3 V c 3 t) p q).trans ?_
  refine (entry_congr (in_apply V c t p q) (row1_apply V c t q) (row2_apply V c t q) (row3_apply V c t q)
    (row4_apply V c t q) (row5_apply V c t q)).trans ?_
  exact (out_apply t (G (V c main_v61) (V c main_v62) (V c main_v63) (V c main_v64) (V c main_v65) (V c main_v66)) p q).symm

/-- An index of the array is in point t's block iff each coordinate is in the block's range on its axis. -/
theorem mem_blk (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v67).slice (win3_6.rect t)).set ↔ _
  rw [View.set_slice_whole, Rect.mem_set_unit]
  exact Iff.rfl

/-- Every index is in the block of the point that holds its row: row r is in block r / 5000. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : grid3.N = 10 := N_3
  have ht : (i 0).val / 5000 < cfg3.N := by show (i 0).val / 5000 < grid3.N; omega
  obtain ⟨e0, e1⟩ := out_facts ⟨(i 0).val / 5000, ht⟩
  refine ⟨⟨(i 0).val / 5000, ht⟩, flush3_6 _, ?_⟩
  rw [mem_blk]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    rw [e1]; omega

/-- The array the region leaves in its output: every entry is `entry` of the input entry and of its column's five parameters. -/
theorem array_eq (c : Dev nD) :
    ((dat3 (F := Ideal) V c).arrAt 6 cfg3.N : S50000x128.Idx → EReal)
      = fun i : S50000x128.Idx => FloatOps.maximumf (F := Ideal) (FloatOps.addf (FloatOps.mulf (FloatOps.mulf (FloatOps.subf (FloatOps.addf (V c main_v61 i) (V c main_v62 (ValueIdx.ix2 (0 : Fin 1) (i 1)))) (V c main_v65 (ValueIdx.ix2 (0 : Fin 1) (i 1)))) (FloatOps.rsqrt (FloatOps.addf (V c main_v66 (ValueIdx.ix2 (0 : Fin 1) (i 1))) (Scalar.ofBits .f32 0x3727C5AC#32)))) (V c main_v63 (ValueIdx.ix2 (0 : Fin 1) (i 1)))) (V c main_v64 (ValueIdx.ix2 (0 : Fin 1) (i 1)))) (Scalar.ofBits .f32 0x00000000#32) :=
  (dat3 (F := Ideal) V c).arrAt_eq_of_cover 6
    (G (V c main_v61) (V c main_v62) (V c main_v63) (V c main_v64) (V c main_v65) (V c main_v66))
    (fun t _ => flushed_eq V c t) cover

end Cert.KernelIdeal.NormRelu3

end
-- ==== Proof.NormRelu5.lean ====
/-
  The bias, batch-normalisation and rectification region number 5 of the network, read as one function of the arrays it finds.

  The region walks ten blocks of 5000 rows of a [50000, 128] array. At each block it adds a bias row, subtracts a mean row,
  multiplies by the reciprocal square root of a variance row shifted by a small constant, multiplies by a gain row, adds a
  shift row and takes the maximum with zero; each [1, 128] parameter row is spread over the 5000 rows of the block. Below:
  the entry-wise function, the block's value at a row and column, each window's block read where it sits in its array, the
  block each point writes back as a block of one whole-array function, the cover of the array by the ten blocks, and the
  array the region leaves.
-/
import proofs.«111725_j67250597921402_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.NormRelu5

open Cert.KernelIdeal Cert.KernelIdeal.Gen Idealize.ShloMosaic Idealize.ShloMosaic.TcCoe Idealize.SL.Sem
open Idealize.ShloMosaic.Pipeline (Dat)
open Idealize.ShloMosaic.ValueIdx

/-- One entry: the input x with the bias b added and the mean mn subtracted, times the reciprocal square root of the variance v
    plus the constant, times the gain g, plus the shift be, and the maximum of that with zero. -/
abbrev entry (x b g be mn v : Ideal .f32) : Ideal .f32 :=
  FloatOps.maximumf (FloatOps.addf (FloatOps.mulf (FloatOps.mulf (FloatOps.subf (FloatOps.addf x b) mn)
    (FloatOps.rsqrt (FloatOps.addf v (Scalar.ofBits .f32 0x3727C5AC#32)))) g) be) (Scalar.ofBits .f32 0x00000000#32)

/-- The whole array: entry (r, k) is `entry` of the input at (r, k) and of the five parameter rows at column k. -/
abbrev G (x : S50000x128.Idx → Ideal .f32) (b g be mn v : S1x128.Idx → Ideal .f32) : S50000x128.Idx → Ideal .f32 := fun i =>
  entry (x i) (b (ix2 (0 : Fin 1) (i 1))) (g (ix2 (0 : Fin 1) (i 1))) (be (ix2 (0 : Fin 1) (i 1)))
    (mn (ix2 (0 : Fin 1) (i 1))) (v (ix2 (0 : Fin 1) (i 1)))

/-- Entries of equal arguments are equal. -/
theorem entry_congr {x x' b b' g g' be be' mn mn' v v' : Ideal .f32} (hx : x = x') (hb : b = b') (hg : g = g')
    (hbe : be = be') (hmn : mn = mn') (hv : v = v') : entry x b g be mn v = entry x' b' g' be' mn' v' := by
  subst hx hb hg hbe hmn hv; rfl

/-- The block's value at row p and column q: every operation is entry-wise, and a [1, 128] row spread over the 5000 rows reads
    the row at column q. The arguments are the input block, the bias, the variance, the mean, the gain and the shift rows. -/
theorem pay_apply (x : FVec Ideal S5000x128 .f32) (b v mn g be : FVec Ideal S1x128 .f32) (p : Fin 5000) (q : Fin 128) :
    k5_pay1 x b v mn g be (ix2 p q)
      = entry (x (ix2 p q)) (b (ix2 (0 : Fin 1) q)) (g (ix2 (0 : Fin 1) q)) (be (ix2 (0 : Fin 1) q))
          (mn (ix2 (0 : Fin 1) q)) (v (ix2 (0 : Fin 1) q)) := by
  have hb : ∀ r : FVec Ideal S1x128 .f32,
      broadcastTo S5000x128 r broadcasts_S1x128_S5000x128 (ix2 p q) = r (ix2 (0 : Fin 1) q) :=
    fun r => broadcastTo_1b_ab_apply r _ p q
  unfold k5_pay1
  simp only [shapeCast_self]
  show FloatOps.maximumf (FloatOps.addf (FloatOps.mulf (FloatOps.mulf (FloatOps.subf (FloatOps.addf (x (ix2 p q))
      (broadcastTo S5000x128 b broadcasts_S1x128_S5000x128 (ix2 p q)))
      (broadcastTo S5000x128 mn broadcasts_S1x128_S5000x128 (ix2 p q)))
      (broadcastTo S5000x128 (rsqrt (addf v (broadcast S1x128 (Scalar.ofBits .f32 0x3727C5AC#32))))
        broadcasts_S1x128_S5000x128 (ix2 p q)))
      (broadcastTo S5000x128 g broadcasts_S1x128_S5000x128 (ix2 p q)))
      (broadcastTo S5000x128 be broadcasts_S1x128_S5000x128 (ix2 p q))) (Scalar.ofBits .f32 0x00000000#32) = _
  rw [hb, hb, hb, hb, hb]
  rfl

theorem zero_offsets : (![0, 0] : Fin 2 → Nat) = fun _ => 0 := funext fun a => by fin_cases a <;> rfl

/-! The block indices, over the ten points: the input and the output move together, one block of rows per point; each
    parameter row stays at block (0, 0). -/

theorem in_facts : ∀ t : Fin cfg5.N, win5_0.index t (0 : Fin 2) = t.val ∧ win5_0.index t (1 : Fin 2) = 0 :=
  (by decide +kernel : ∀ t : Fin grid5.N, _)
theorem row_facts1 : ∀ t : Fin cfg5.N, win5_1.index t (0 : Fin 2) = 0 ∧ win5_1.index t (1 : Fin 2) = 0 :=
  (by decide +kernel : ∀ t : Fin grid5.N, _)
theorem row_facts2 : ∀ t : Fin cfg5.N, win5_2.index t (0 : Fin 2) = 0 ∧ win5_2.index t (1 : Fin 2) = 0 :=
  (by decide +kernel : ∀ t : Fin grid5.N, _)
theorem row_facts3 : ∀ t : Fin cfg5.N, win5_3.index t (0 : Fin 2) = 0 ∧ win5_3.index t (1 : Fin 2) = 0 :=
  (by decide +kernel : ∀ t : Fin grid5.N, _)
theorem row_facts4 : ∀ t : Fin cfg5.N, win5_4.index t (0 : Fin 2) = 0 ∧ win5_4.index t (1 : Fin 2) = 0 :=
  (by decide +kernel : ∀ t : Fin grid5.N, _)
theorem row_facts5 : ∀ t : Fin cfg5.N, win5_5.index t (0 : Fin 2) = 0 ∧ win5_5.index t (1 : Fin 2) = 0 :=
  (by decide +kernel : ∀ t : Fin grid5.N, _)
theorem out_facts : ∀ t : Fin cfg5.N, win5_6.index t (0 : Fin 2) = t.val ∧ win5_6.index t (1 : Fin 2) = 0 :=
  (by decide +kernel : ∀ t : Fin grid5.N, _)

theorem point_lt (t : Fin cfg5.N) : t.val < 10 := by
  have h : t.val < grid5.N := t.isLt
  rw [N_5] at h; exact h

/-- Row p of block t is row 5000·t + p of the array. -/
abbrev rowOf (t : Fin cfg5.N) (p : Fin 5000) : Fin 50000 :=
  ⟨t.val * 5000 + p.val, by have := point_lt t; have := p.isLt; omega⟩

variable (V : (c : Dev nD) → (b : Ref sig .tc) → Buf (Elt Ideal) ((c : Thread nD τ).loc b))

/-! Each window's block read where it sits in its array: a block's coordinate on an axis is the block index times the block
    size plus the coordinate inside the block. -/

/-- The input block at point t, at (p, q), is the input array at row 5000·t + p, column q. -/
theorem in_apply (c : Dev nD) (t : Fin cfg5.N) (p : Fin 5000) (q : Fin 128) :
    iblk5 V c 0 t (ix2 p q) = V c main_v81 (ix2 (rowOf t p) q) := by
  obtain ⟨e0, e1⟩ := in_facts t
  show V c main_v81 (((cfg5.win 0).blk t).view.emb (ix2 p q)) = V c main_v81 (ix2 (rowOf t p) q)
  refine congrArg (V c main_v81) (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * q.val = q.val; omega

/-- The bias row's block at any point is the row itself: its block index is (0, 0). -/
theorem row1_apply (c : Dev nD) (t : Fin cfg5.N) (q : Fin 128) :
    iblk5 V c 1 t (ix2 (0 : Fin 1) q) = V c main_v82 (ix2 (0 : Fin 1) q) := by
  obtain ⟨e0, e1⟩ := row_facts1 t
  show V c main_v82 (((cfg5.win 1).blk t).view.emb (ix2 (0 : Fin 1) q)) = V c main_v82 (ix2 (0 : Fin 1) q)
  refine congrArg (V c main_v82) (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

/-- The gain row's block at any point is the row itself: its block index is (0, 0). -/
theorem row2_apply (c : Dev nD) (t : Fin cfg5.N) (q : Fin 128) :
    iblk5 V c 2 t (ix2 (0 : Fin 1) q) = V c main_v83 (ix2 (0 : Fin 1) q) := by
  obtain ⟨e0, e1⟩ := row_facts2 t
  show V c main_v83 (((cfg5.win 2).blk t).view.emb (ix2 (0 : Fin 1) q)) = V c main_v83 (ix2 (0 : Fin 1) q)
  refine congrArg (V c main_v83) (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

/-- The shift row's block at any point is the row itself: its block index is (0, 0). -/
theorem row3_apply (c : Dev nD) (t : Fin cfg5.N) (q : Fin 128) :
    iblk5 V c 3 t (ix2 (0 : Fin 1) q) = V c main_v84 (ix2 (0 : Fin 1) q) := by
  obtain ⟨e0, e1⟩ := row_facts3 t
  show V c main_v84 (((cfg5.win 3).blk t).view.emb (ix2 (0 : Fin 1) q)) = V c main_v84 (ix2 (0 : Fin 1) q)
  refine congrArg (V c main_v84) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- The mean row's block at any point is the row itself: its block index is (0, 0). -/
theorem row4_apply (c : Dev nD) (t : Fin cfg5.N) (q : Fin 128) :
    iblk5 V c 4 t (ix2 (0 : Fin 1) q) = V c main_v85 (ix2 (0 : Fin 1) q) := by
  obtain ⟨e0, e1⟩ := row_facts4 t
  show V c main_v85 (((cfg5.win 4).blk t).view.emb (ix2 (0 : Fin 1) q)) = V c main_v85 (ix2 (0 : Fin 1) q)
  refine congrArg (V c main_v85) (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- The variance row's block at any point is the row itself: its block index is (0, 0). -/
theorem row5_apply (c : Dev nD) (t : Fin cfg5.N) (q : Fin 128) :
    iblk5 V c 5 t (ix2 (0 : Fin 1) q) = V c main_v86 (ix2 (0 : Fin 1) q) := by
  obtain ⟨e0, e1⟩ := row_facts5 t
  show V c main_v86 (((cfg5.win 5).blk t).view.emb (ix2 (0 : Fin 1) q)) = V c main_v86 (ix2 (0 : Fin 1) q)
  refine congrArg (V c main_v86) (funext fun a => Fin.ext ?_)
  match a with
  | ⟨0, _⟩ => show win5_5.index t (0 : Fin 2) * 1 + 1 * 0 = 0; omega
  | ⟨1, _⟩ => show win5_5.index t (1 : Fin 2) * 128 + 1 * q.val = q.val; omega

/-- An array read through the output window's block at point t, at (p, q), is the array at row 5000·t + p, column q. -/
theorem out_apply (t : Fin cfg5.N) (A : S50000x128.Idx → Ideal .f32) (p : Fin 5000) (q : Fin 128) :
    ((cfg5.win 6).blk t).view.read (Elt Ideal) A (ix2 p q) = A (ix2 (rowOf t p) q) := by
  obtain ⟨e0, e1⟩ := out_facts t
  show A (((cfg5.win 6).blk t).view.emb (ix2 p q)) = A (ix2 (rowOf t p) q)
  refine congrArg A (funext fun a => Fin.ext ?_)
  match a with
  | ⟨0, _⟩ => show win5_6.index t (0 : Fin 2) * 5000 + 1 * p.val = t.val * 5000 + p.val; omega
  | ⟨1, _⟩ => show win5_6.index t (1 : Fin 2) * 128 + 1 * q.val = q.val; omega

/-- What point t writes back is block t of `G` of the arrays the region finds. -/
theorem flushed_eq (c : Dev nD) (t : Fin cfg5.N) :
    (dat5 (F := Ideal) V c).flushed 6 t = ((cfg5.win 6).blk t).view.read (Elt Ideal)
      (G (V c main_v81) (V c main_v82) (V c main_v83) (V c main_v84) (V c main_v85) (V c main_v86)) := by
  show (cfg5.win 6).cut (grid5.coords t) ((dat5 V c).after 6 t) = _
  rw [after5_6]
  unfold out5_6
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (pay_apply (iblk5 V c 0 t) (iblk5 V c 1 t) (iblk5 V c 5 t) (iblk5 V c 4 t) (iblk5 V c 2 t) (iblk5 V c 3 t) p q).trans ?_
  refine (entry_congr (in_apply V c t p q) (row1_apply V c t q) (row2_apply V c t q) (row3_apply V c t q)
    (row4_apply V c t q) (row5_apply V c t q)).trans ?_
  exact (out_apply t (G (V c main_v81) (V c main_v82) (V c main_v83) (V c main_v84) (V c main_v85) (V c main_v86)) p q).symm

/-- An index of the array is in point t's block iff each coordinate is in the block's range on its axis. -/
theorem mem_blk (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v87).slice (win5_6.rect t)).set ↔ _
  rw [View.set_slice_whole, Rect.mem_set_unit]
  exact Iff.rfl

/-- Every index is in the block of the point that holds its row: row r is in block r / 5000. -/
theorem cover (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : grid5.N = 10 := N_5
  have ht : (i 0).val / 5000 < cfg5.N := by show (i 0).val / 5000 < grid5.N; omega
  obtain ⟨e0, e1⟩ := out_facts ⟨(i 0).val / 5000, ht⟩
  refine ⟨⟨(i 0).val / 5000, ht⟩, flush5_6 _, ?_⟩
  rw [mem_blk]
  intro a
  match a with
  | ⟨0, _⟩ =>
    show win5_6.index ⟨(i 0).val / 5000, ht⟩ (0 : Fin 2) * 5000 ≤ (i 0).val
      ∧ (i 0).val < win5_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_6.index ⟨(i 0).val / 5000, ht⟩ (1 : Fin 2) * 128 ≤ (i 1).val
      ∧ (i 1).val < win5_6.index ⟨(i 0).val / 5000, ht⟩ (1 : Fin 2) * 128 + 128
    rw [e1]; omega

/-- The array the region leaves in its output: every entry is `entry` of the input entry and of its column's five parameters. -/
theorem array_eq (c : Dev nD) :
    ((dat5 (F := Ideal) V c).arrAt 6 cfg5.N : S50000x128.Idx → EReal)
      = fun i : S50000x128.Idx => FloatOps.maximumf (F := Ideal) (FloatOps.addf (FloatOps.mulf (FloatOps.mulf (FloatOps.subf (FloatOps.addf (V c main_v81 i) (V c main_v82 (ValueIdx.ix2 (0 : Fin 1) (i 1)))) (V c main_v85 (ValueIdx.ix2 (0 : Fin 1) (i 1)))) (FloatOps.rsqrt (FloatOps.addf (V c main_v86 (ValueIdx.ix2 (0 : Fin 1) (i 1))) (Scalar.ofBits .f32 0x3727C5AC#32)))) (V c main_v83 (ValueIdx.ix2 (0 : Fin 1) (i 1)))) (V c main_v84 (ValueIdx.ix2 (0 : Fin 1) (i 1)))) (Scalar.ofBits .f32 0x00000000#32) :=
  (dat5 (F := Ideal) V c).arrAt_eq_of_cover 6
    (G (V c main_v81) (V c main_v82) (V c main_v83) (V c main_v84) (V c main_v85) (V c main_v86))
    (fun t _ => flushed_eq V c t) cover

end Cert.KernelIdeal.NormRelu5

end
-- ==== Proof.Head.lean ====
/-
  The head region: two dense layers on the pooled features, in ONE grid point.

  The grid has a single point, and at it every window's block is its whole array (block index (0, 0), block size the
  array's size).  So the region's output array ends holding the body's value of the five whole arrays the region finds:
  the pooled features [2000, 128], the first layer's weights [128, 32] and bias row [1, 32], the second layer's weights
  [32, 1] and bias [1, 1].
-/
import proofs.«111725_j67250597921402_1_alg».proof.Proof.Gen.KernelIdeal.Frame
import Idealize.ShloMosaic.Lib.Pipeline.Value

set_option maxRecDepth 16384

noncomputable section

namespace Cert.KernelIdeal.Head

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- At the grid's only point every window sits at block (0, 0). -/
theorem block_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- A block that starts at (0, 0) and has the array's size embeds each of its indices as itself. -/
theorem emb0 (t : Fin cfg6.N) (j : S2000x128.Idx) : ((cfg6.win 0).blk t).view.emb j = j := by
  obtain ⟨e0, e1, -⟩ := block_zero t
  funext a; apply Fin.ext
  match a with
  | ⟨0, _⟩ => show win6_0.index t (0 : Fin 2) * 2000 + 1 * (j 0).val = (j 0).val; omega
  | ⟨1, _⟩ => show win6_0.index t (1 : Fin 2) * 128 + 1 * (j 1).val = (j 1).val; omega
theorem emb1 (t : Fin cfg6.N) (j : S128x32.Idx) : ((cfg6.win 1).blk t).view.emb j = j := by
  obtain ⟨-, -, e0, e1, -⟩ := block_zero t
  funext a; apply Fin.ext
  match a with
  | ⟨0, _⟩ => show win6_1.index t (0 : Fin 2) * 128 + 1 * (j 0).val = (j 0).val; omega
  | ⟨1, _⟩ => show win6_1.index t (1 : Fin 2) * 32 + 1 * (j 1).val = (j 1).val; omega
theorem emb2 (t : Fin cfg6.N) (j : S1x32.Idx) : ((cfg6.win 2).blk t).view.emb j = j := by
  obtain ⟨-, -, -, -, e0, e1, -⟩ := block_zero t
  funext a; apply Fin.ext
  match a with
  | ⟨0, _⟩ => show win6_2.index t (0 : Fin 2) * 1 + 1 * (j 0).val = (j 0).val; omega
  | ⟨1, _⟩ => show win6_2.index t (1 : Fin 2) * 32 + 1 * (j 1).val = (j 1).val; omega
theorem emb3 (t : Fin cfg6.N) (j : S32x1.Idx) : ((cfg6.win 3).blk t).view.emb j = j := by
  obtain ⟨-, -, -, -, -, -, e0, e1, -⟩ := block_zero t
  funext a; apply Fin.ext
  match a with
  | ⟨0, _⟩ => show win6_3.index t (0 : Fin 2) * 32 + 1 * (j 0).val = (j 0).val; omega
  | ⟨1, _⟩ => show win6_3.index t (1 : Fin 2) * 1 + 1 * (j 1).val = (j 1).val; omega
theorem emb4 (t : Fin cfg6.N) (j : S1x1.Idx) : ((cfg6.win 4).blk t).view.emb j = j := by
  obtain ⟨-, -, -, -, -, -, -, -, e0, e1, -⟩ := block_zero t
  funext a; apply Fin.ext
  match a with
  | ⟨0, _⟩ => show win6_4.index t (0 : Fin 2) * 1 + 1 * (j 0).val = (j 0).val; omega
  | ⟨1, _⟩ => show win6_4.index t (1 : Fin 2) * 1 + 1 * (j 1).val = (j 1).val; omega
theorem emb5 (t : Fin cfg6.N) (j : S2000x1.Idx) : ((cfg6.win 5).blk t).view.emb j = j := by
  obtain ⟨-, -, -, -, -, -, -, -, -, -, e0, e1⟩ := block_zero t
  funext a; apply Fin.ext
  match a with
  | ⟨0, _⟩ => show win6_5.index t (0 : Fin 2) * 2000 + 1 * (j 0).val = (j 0).val; omega
  | ⟨1, _⟩ => show win6_5.index t (1 : Fin 2) * 1 + 1 * (j 1).val = (j 1).val; omega

/-- So each input window's block at the point is the whole array the region finds. -/
theorem iblk_0 (c : Dev nD) (t : Fin cfg6.N) : iblk6 V c 0 t = V c main_v99 := by
  funext j; show V c main_v99 (((cfg6.win 0).blk t).view.emb j) = V c main_v99 j; rw [emb0]
theorem iblk_1 (c : Dev nD) (t : Fin cfg6.N) : iblk6 V c 1 t = V c main_arg9 := by
  funext j; show V c main_arg9 (((cfg6.win 1).blk t).view.emb j) = V c main_arg9 j; rw [emb1]
theorem iblk_2 (c : Dev nD) (t : Fin cfg6.N) : iblk6 V c 2 t = V c main_v100 := by
  funext j; show V c main_v100 (((cfg6.win 2).blk t).view.emb j) = V c main_v100 j; rw [emb2]
theorem iblk_3 (c : Dev nD) (t : Fin cfg6.N) : iblk6 V c 3 t = V c main_arg11 := by
  funext j; show V c main_arg11 (((cfg6.win 3).blk t).view.emb j) = V c main_arg11 j; rw [emb3]
theorem iblk_4 (c : Dev nD) (t : Fin cfg6.N) : iblk6 V c 4 t = V c main_v101 := by
  funext j; show V c main_v101 (((cfg6.win 4).blk t).view.emb j) = V c main_v101 j; rw [emb4]

/-- What the point writes back is the body's value of the five whole arrays, read through the whole-array block. -/
theorem flushed_eq (c : Dev nD) (t : Fin cfg6.N) :
    (dat6 V c).flushed 5 t = ((cfg6.win 5).blk t).view.read (Elt F)
      (k6_pay1 (V c main_v99) (V c main_arg9) (V c main_v100) (V c main_arg11) (V c main_v101)) := by
  show (cfg6.win 5).cut (grid6.coords t) ((dat6 V c).after 5 t) = _
  rw [after6_5]
  unfold out6_5
  rw [View.canon_unit_zero zeros]
  simp only [View.ld_unit_zero (S := S2000x128) zeros, View.ld_unit_zero (S := S128x32) zeros, View.ld_unit_zero (S := S1x32) zeros,
    View.ld_unit_zero (S := S32x1) zeros, View.ld_unit_zero (S := S1x1) zeros]
  rw [iblk_0, iblk_1, iblk_2, iblk_3, iblk_4]
  funext j
  show k6_pay1 (V c main_v99) (V c main_arg9) (V c main_v100) (V c main_arg11) (V c main_v101) j
    = k6_pay1 (V c main_v99) (V c main_arg9) (V c main_v100) (V c main_arg11) (V c main_v101) (((cfg6.win 5).blk t).view.emb j)
  rw [emb5]

/-- The only point's block is the whole output array. -/
theorem cover (i : S2000x1.Idx) : ∃ t : Fin cfg6.N, (cfg6.win 5).flush t = true ∧ i ∈ ((cfg6.win 5).blk t).view.set := by
  refine ⟨t6_0, flush6_5 t6_0, ?_⟩
  show i ∈ ((View.whole main_v102).slice (win6_5.rect t6_0)).set
  rw [View.set_slice_whole, Rect.mem_set_unit]
  obtain ⟨-, -, -, -, -, -, -, -, -, -, e0, e1⟩ := block_zero t6_0
  have h0 : (i 0).val < 2000 := (i 0).isLt
  have h1 : (i 1).val < 1 := (i 1).isLt
  intro a
  match a with
  | ⟨0, _⟩ => show win6_5.index t6_0 (0 : Fin 2) * 2000 ≤ (i 0).val ∧ (i 0).val < win6_5.index t6_0 (0 : Fin 2) * 2000 + 2000; omega
  | ⟨1, _⟩ => show win6_5.index t6_0 (1 : Fin 2) * 1 ≤ (i 1).val ∧ (i 1).val < win6_5.index t6_0 (1 : Fin 2) * 1 + 1; omega

/-- THE OUTPUT ARRAY after the region: the body's value of the five arrays as the region finds them. -/
theorem array_eq (c : Dev nD) :
    (dat6 V c).arrAt 5 cfg6.N = k6_pay1 (V c main_v99) (V c main_arg9) (V c main_v100) (V c main_arg11) (V c main_v101) :=
  (dat6 V c).arrAt_eq_of_cover 5 _ (fun t _ => flushed_eq V c t) (cover)

end Cert.KernelIdeal.Head

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.HeadValue.lean ====
/-
  The head's arithmetic at the exact instance.

  The body computes  (max(P · W1 + b1, 0)) · W2 + b2  with both products fed through bf16 casts into zero accumulators
  and the biases held as one-row arrays broadcast over the 2000 rows.  On the extended reals a change of float format
  is the identity and a matrix product into zeros is the plain sum over the contracted index, so the body's value is
  the two host matrix products of the same arrays, with the bias rows spread by the host's pair of broadcasts and the
  zero of the maximum spread from a scalar — provided the one-row arrays hold the bias vectors' entries.
-/
import proofs.«111725_j67250597921402_1_alg».proof.Proof.Gen.KernelIdeal.Skeleton
import proofs.«111725_j67250597921402_1_alg».proof.Proof.LibIdealLayout

noncomputable section

namespace Cert.KernelIdeal.HeadValue

open Cert.KernelIdeal Cert.KernelIdeal.Gen
open Idealize.ShloMosaic Idealize.ShloMosaic.ValueIdx Idealize.ShloMosaic.IdealLayout

/-- A one-row array [1, b] broadcast over a rows by the body equals the host's two broadcasts of the vector [b]
    whose entries the row holds: both read entry c of the vector at (p, c). -/
theorem rows_eq {a b : ℕ} (r : (⟨2, ![1, b]⟩ : Shape).Idx → EReal) (v : (⟨1, ![b]⟩ : Shape).Idx → EReal)
    (h : ∀ q : Fin b, r (ix2 (0 : Fin 1) q) = v (ix1 q))
    (hs : (⟨2, ![1, b]⟩ : Shape).ShapeCasts ⟨2, ![1, b]⟩) (hb : (⟨2, ![1, b]⟩ : Shape).Broadcasts ⟨2, ![a, b]⟩)
    (h1 : (⟨1, ![b]⟩ : Shape).BroadcastsInDim ⟨2, ![1, b]⟩ ![1]) (h2 : (⟨2, ![1, b]⟩ : Shape).BroadcastsInDim ⟨2, ![a, b]⟩ ![0, 1]) :
    broadcastTo ⟨2, ![a, b]⟩ (shapeCast ⟨2, ![1, b]⟩ r hs) hb = broadcastInDim ⟨2, ![a, b]⟩ ![0, 1] h2 (broadcastInDim ⟨2, ![1, b]⟩ ![1] h1 v) := by
  funext i
  obtain ⟨p, q, rfl⟩ : ∃ (p : Fin a) (q : Fin b), i = ix2 p q := ⟨i 0, i 1, eq_ix2 i⟩
  rw [shapeCast_self, broadcastTo_1b_ab_apply, broadcastInDim_row_apply, h]

/-- The zero the maximum is taken against: a scalar splat by the body, a scalar broadcast by the host. -/
theorem zero_eq {s : Shape} (hz : (⟨0, ![]⟩ : Shape).BroadcastsInDim s ![]) :
    broadcast s (FloatOps.ofBits (F := Ideal) .f32 0#32) = broadcastInDim s ![] hz (constant (F := Ideal) ⟨0, ![]⟩ .f32 0x00000000#32) := by
  funext i
  rw [broadcast_apply, broadcastInDim_scalar_apply]
  rfl

/-- THE BODY'S VALUE: the host's expression of the same five arrays. -/
theorem payload_eq (P : FVec Ideal S2000x128 .f32) (w1 : FVec Ideal S128x32 .f32) (b1r : FVec Ideal S1x32 .f32)
    (w2 : FVec Ideal S32x1 .f32) (b2r : FVec Ideal S1x1 .f32) (b1 : FVec Ideal S32 .f32) (b2 : FVec Ideal S1 .f32)
    (h1 : ∀ q : Fin 32, b1r (ix2 (0 : Fin 1) q) = b1 (ix1 q)) (h2 : ∀ q : Fin 1, b2r (ix2 (0 : Fin 1) q) = b2 (ix1 q))
    (hb1 : S32.BroadcastsInDim S1x32 ![1]) (hb2 : S1x32.BroadcastsInDim S2000x32 ![0, 1]) (hz : S_.BroadcastsInDim S2000x32 ![])
    (hc1 : S1.BroadcastsInDim S1x1 ![1]) (hc2 : S1x1.BroadcastsInDim S2000x1 ![0, 1]) :
    k6_pay1 (F := Ideal) P w1 b1r w2 b2r
      = addf (Host.dotGeneral dot_S2000x32_S32x1_S2000x1_1_0_0_1_n_n none
          (maximumf (addf (Host.dotGeneral dot_S2000x128_S128x32_S2000x32_1_0_0_1_n_n none P w1)
              (broadcastInDim S2000x32 ![0, 1] hb2 (broadcastInDim S1x32 ![1] hb1 b1)))
            (broadcastInDim S2000x32 ![] hz (constant S_ .f32 0x00000000#32))) w2)
        (broadcastInDim S2000x1 ![0, 1] hc2 (broadcastInDim S1x1 ![1] hc1 b2)) := by
  unfold k6_pay1
  dsimp only
  have e1 : (matmul dot_S2000x128_S128x32_S2000x32_1_0_0_1_n_n none
      (truncf .bf16 (shapeCast S2000x128 P shapeCasts_S2000x128_S2000x128) bitsLt_bf16_f32) (truncf .bf16 w1 bitsLt_bf16_f32)
      (constant S2000x32 .f32 0#32) : S2000x32.Idx → EReal) = Host.dotGeneral dot_S2000x128_S128x32_S2000x32_1_0_0_1_n_n none P w1 :=
    matmul_zero_eq_dotGeneral_of_eq _ none _ _ P w1 (fun i => by rw [shapeCast_self]; rfl) (fun i => rfl)
  have e2 : ∀ M : FVec Ideal S2000x32 .f32, (matmul dot_S2000x32_S32x1_S2000x1_1_0_0_1_n_n none
      (truncf .bf16 M bitsLt_bf16_f32) (truncf .bf16 w2 bitsLt_bf16_f32) (constant S2000x1 .f32 0#32) : S2000x1.Idx → EReal)
        = Host.dotGeneral dot_S2000x32_S32x1_S2000x1_1_0_0_1_n_n none M w2 :=
    fun M => matmul_zero_eq_dotGeneral_of_eq _ none _ _ M w2 (fun i => rfl) (fun i => rfl)
  rw [e1, e2, rows_eq b1r b1 h1 shapeCasts_S1x32_S1x32 broadcasts_S1x32_S2000x32 hb1 hb2,
    rows_eq b2r b2 h2 shapeCasts_S1x1_S1x1 broadcasts_S1x1_S2000x1 hc1 hc2, zero_eq hz]

end Cert.KernelIdeal.HeadValue

end
-- ==== Proof.RefForms.lean ====
/-
  The reference, stage by stage, in three named forms.

  * Its matrix products of a [50000, 128] array by a [128, 128] one are plain sums over the contracted index.
  * Each layer's bias + batch norm + ReLU is ONE function of the aggregated array and five vectors of length 128:
    max((((A + b) − mn) · rsqrt(v + ε)) · g + be, 0), each vector spread over the rows by two broadcasts; at an index
    (r, q) it reads the vectors' entry q.
  * The head is one function of the pooled features, two weight matrices and two bias vectors.
  The reference's own stages are these forms applied to its earlier stages, by unfolding.
-/
import proofs.«111725_j67250597921402_1_alg».proof.Proof.Gen.ReferenceIdeal.Read
import proofs.«111725_j67250597921402_1_alg».proof.Proof.LibIdealLayout

set_option maxRecDepth 16384

noncomputable section

namespace Cert.ReferenceIdeal.Forms

open Cert.ReferenceIdeal Cert.ReferenceIdeal.Facts₀ Cert.ReferenceIdeal.Read
open Idealize.ShloMosaic Idealize.ShloMosaic.ValueIdx Idealize.ShloMosaic.IdealLayout

/-! ## The layers' matrix product -/

/-- Entry (r, q) of the product is the sum over k of left (r, k) · right (k, q). -/
theorem product_apply (X : (⟨S50000x128, .f32⟩ : BufTy).Contents (Elt Ideal)) (Wt : (⟨S128x128, .f32⟩ : BufTy).Contents (Elt Ideal)) :
    val_main_v4 (F := Ideal) X Wt = fun i => ∑ k : Fin 128, X (ix2 (i 0) k) * Wt (ix2 k (i 1)) := by
  funext i
  rw [val_main_v4_apply]
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-! ## Bias, batch norm, ReLU -/

/-- A vector of length 128 spread over the 50000 rows: [128] → [1, 128] → [50000, 128]. -/
def rows (y : FVec Ideal S128 .f32) : FVec Ideal S50000x128 .f32 :=
  broadcastInDim S50000x128 ![0, 1] bcast_S1x128_S50000x128_0_1 (broadcastInDim S1x128 ![1] bcast_S128_S1x128_1 y)

theorem rows_apply (y : FVec Ideal S128 .f32) (p : Fin 50000) (q : Fin 128) : rows y (ix2 p q) = y (ix1 q) :=
  broadcastInDim_row_apply y bcast_S128_S1x128_1 bcast_S1x128_S50000x128_0_1 p q

/-- One layer's bias + batch norm + ReLU of an aggregated array. -/
def normRelu (A : FVec Ideal S50000x128 .f32) (b g be mn v : FVec Ideal S128 .f32) : FVec Ideal S50000x128 .f32 :=
  maximumf (F := Ideal) (addf (mulf (mulf (subf (addf A (rows b)) (rows mn))
      (rows (Host.rsqrt (addf v (broadcastInDim S128 ![] bcast_S_S128 (constant S_ .f32 0x3727C5AC#32)))))) (rows g)) (rows be))
    (broadcastInDim S50000x128 ![] bcast_S_S50000x128 (constant S_ .f32 0x00000000#32))

/-- At (r, q): max((((A(r,q) + b q) − mn q) · rsqrt(v q + ε)) · g q + be q, 0). -/
theorem normRelu_apply (A : FVec Ideal S50000x128 .f32) (b g be mn v : FVec Ideal S128 .f32)
    (p : Fin 50000) (q : Fin 128) :
    normRelu A b g be mn v (ix2 p q)
      = (FloatOps.maximumf (FloatOps.addf (FloatOps.mulf (FloatOps.mulf (FloatOps.subf (FloatOps.addf (A (ix2 p q)) (b (ix1 q))) (mn (ix1 q)))
          (FloatOps.rsqrt (FloatOps.addf (v (ix1 q)) (FloatOps.ofBits .f32 0x3727C5AC#32)))) (g (ix1 q))) (be (ix1 q)))
          (FloatOps.ofBits .f32 0x00000000#32) : Ideal .f32) := by
  unfold normRelu
  show (FloatOps.maximumf (FloatOps.addf (FloatOps.mulf (FloatOps.mulf (FloatOps.subf (FloatOps.addf (A (ix2 p q)) (rows b (ix2 p q))) (rows mn (ix2 p q)))
      (rows (Host.rsqrt (addf v (broadcastInDim S128 ![] bcast_S_S128 (constant S_ .f32 0x3727C5AC#32)))) (ix2 p q))) (rows g (ix2 p q))) (rows be (ix2 p q)))
      (broadcastInDim S50000x128 ![] bcast_S_S50000x128 (constant (F := Ideal) S_ .f32 0x00000000#32) (ix2 p q)) : Ideal .f32) = _
  rw [rows_apply, rows_apply, rows_apply, rows_apply, rows_apply, broadcastInDim_scalar_apply]
  show (FloatOps.maximumf (FloatOps.addf (FloatOps.mulf (FloatOps.mulf (FloatOps.subf (FloatOps.addf (A (ix2 p q)) (b (ix1 q))) (mn (ix1 q)))
      (FloatOps.hostUnary .rsqrt (FloatOps.addf (v (ix1 q)) (broadcastInDim S128 ![] bcast_S_S128 (constant (F := Ideal) S_ .f32 0x3727C5AC#32) (ix1 q))))) (g (ix1 q))) (be (ix1 q)))
      (FloatOps.ofBits .f32 0x00000000#32) : Ideal .f32) = _
  rw [broadcastInDim_scalar_apply]
  rfl

theorem stage60 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) :
    val_main_v60 (F := Ideal) x0 x1 x3 x4 x13 x14 x15 x16 = normRelu (val_main_v41 (F := Ideal) x0 x1 x3) x4 x13 x14 x15 x16 := rfl
theorem stage61 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) :
    val_main_v61 (F := Ideal) x0 x1 x3 x4 x5 x13 x14 x15 x16 = val_main_v4 (F := Ideal) (val_main_v60 (F := Ideal) x0 x1 x3 x4 x13 x14 x15 x16) x5 := rfl
theorem stage117 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) :
    val_main_v117 (F := Ideal) x0 x1 x3 x4 x5 x6 x13 x14 x15 x16 x17 x18 x19 x20 = normRelu (val_main_v98 (F := Ideal) x0 x1 x3 x4 x5 x13 x14 x15 x16) x6 x17 x18 x19 x20 := rfl
theorem stage118 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) :
    val_main_v118 (F := Ideal) x0 x1 x3 x4 x5 x6 x7 x13 x14 x15 x16 x17 x18 x19 x20 = val_main_v4 (F := Ideal) (val_main_v117 (F := Ideal) x0 x1 x3 x4 x5 x6 x13 x14 x15 x16 x17 x18 x19 x20) x7 := rfl
theorem stage174 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) :
    val_main_v174 (F := Ideal) x0 x1 x3 x4 x5 x6 x7 x8 x13 x14 x15 x16 x17 x18 x19 x20 x21 x22 x23 x24 = normRelu (val_main_v155 (F := Ideal) x0 x1 x3 x4 x5 x6 x7 x13 x14 x15 x16 x17 x18 x19 x20) x8 x21 x22 x23 x24 := rfl

/-! ## The head -/

/-- (max(P · W1 + b1, 0)) · W2 + b2, the biases spread over the 2000 rows. -/
def head (P : FVec Ideal S2000x128 .f32) (w1 : FVec Ideal S128x32 .f32) (b1 : FVec Ideal S32 .f32) (w2 : FVec Ideal S32x1 .f32)
    (b2 : FVec Ideal S1 .f32) : FVec Ideal S2000x1 .f32 :=
  addf (F := Ideal) (Host.dotGeneral dot_S2000x32_S32x1_S2000x1_1_0_0_1_n_n none
      (maximumf (addf (Host.dotGeneral dot_S2000x128_S128x32_S2000x32_1_0_0_1_n_n none P w1)
          (broadcastInDim S2000x32 ![0, 1] bcast_S1x32_S2000x32_0_1 (broadcastInDim S1x32 ![1] bcast_S32_S1x32_1 b1)))
        (broadcastInDim S2000x32 ![] bcast_S_S2000x32 (constant S_ .f32 0x00000000#32))) w2)
    (broadcastInDim S2000x1 ![0, 1] bcast_S1x1_S2000x1_0_1 (broadcastInDim S1x1 ![1] bcast_S1_S1x1_1 b2))

theorem stage195 (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128, .f32⟩ : BufTy).Contents (Elt Ideal)) (x18 : (⟨S128, .f32⟩ : BufTy).Contents (Elt Ideal)) (x19 : (⟨S128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) :
    val_main_v195 (F := Ideal) x0 x1 x2 x3 x4 x5 x6 x7 x8 x9 x10 x11 x12 x13 x14 x15 x16 x17 x18 x19 x20 x21 x22 x23 x24 = head (val_main_v186 (F := Ideal) x0 x1 x2 x3 x4 x5 x6 x7 x8 x13 x14 x15 x16 x17 x18 x19 x20 x21 x22 x23 x24) x9 x10 x11 x12 := rfl

end Cert.ReferenceIdeal.Forms

end
-- ==== Proof.Boundaries.lean ====
/-
  The idealized kernel's buffers at each boundary, as the reference's stages of the same arguments.

  Layer by layer the kernel computes what the reference computes, with three differences of arrangement only:
  the graph arrays (edge sources and targets with the self loops appended, and the edge weights) are computed once
  and reused by the three layers, where the reference recomputes the same expressions in every layer; each layer's
  matrix product is done in ten blocks of 5000 rows by a kernel region, and its bias + batch norm + ReLU likewise;
  and the head's two dense layers are one region.  Each region's output array was shown to be the corresponding
  whole-array function of the arrays the region finds; each host stretch applies literally the reference's operations.
  So, walking the boundaries in order, every live buffer holds the reference's stage of the launch arguments.
-/
import proofs.«111725_j67250597921402_1_alg».proof.Proof.Carried
import proofs.«111725_j67250597921402_1_alg».proof.Proof.MatmulRows0
import proofs.«111725_j67250597921402_1_alg».proof.Proof.MatmulRows2
import proofs.«111725_j67250597921402_1_alg».proof.Proof.MatmulRows4
import proofs.«111725_j67250597921402_1_alg».proof.Proof.NormRelu1
import proofs.«111725_j67250597921402_1_alg».proof.Proof.NormRelu3
import proofs.«111725_j67250597921402_1_alg».proof.Proof.NormRelu5
import proofs.«111725_j67250597921402_1_alg».proof.Proof.Head
import proofs.«111725_j67250597921402_1_alg».proof.Proof.HeadValue
import proofs.«111725_j67250597921402_1_alg».proof.Proof.RefForms
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read (val_main_v4 val_main_v6 val_main_v8 val_main_v28 val_main_v41 val_main_v60 val_main_v61 val_main_v98
  val_main_v117 val_main_v118 val_main_v155 val_main_v174 val_main_v186 val_main_v195 val_main_v196)

variable (m : (ℓ : Loc nD τ sig) → Buf (Elt Ideal) ℓ) (ρ : Dev nD → PrngReg) (c : Dev nD)

/-! ## The graph arrays, after the first stretch and at every later boundary that reads them -/

set_option maxHeartbeats 4000000 in
theorem src1 : W1 m ρ c (Proc.devRef .tc main_v5) = val_main_v6 (F := Ideal) (m ((c : Thread nD τ).loc main_arg1)) := by
  show StableHlo.after hostOps0 (W0 m ρ c) (Proc.devRef .tc main_v5) = _
  after_results_simp
  rfl
set_option maxHeartbeats 4000000 in
theorem dst1 : W1 m ρ c (Proc.devRef .tc main_v7) = val_main_v8 (F := Ideal) (m ((c : Thread nD τ).loc main_arg1)) := by
  show StableHlo.after hostOps0 (W0 m ρ c) (Proc.devRef .tc main_v7) = _
  after_results_simp
  rfl
set_option maxHeartbeats 4000000 in
theorem wgt1 : W1 m ρ c (Proc.devRef .tc main_v27) = val_main_v28 (F := Ideal) (m ((c : Thread nD τ).loc main_arg1)) := by
  show StableHlo.after hostOps0 (W0 m ρ c) (Proc.devRef .tc main_v27) = _
  after_results_simp
  rfl

theorem src2 : W2 m ρ c (Proc.devRef .tc main_v5) = val_main_v6 (F := Ideal) (m ((c : Thread nD τ).loc main_arg1)) := (Carried.graph_at2 m ρ c 0).trans (src1 m ρ c)
theorem dst2 : W2 m ρ c (Proc.devRef .tc main_v7) = val_main_v8 (F := Ideal) (m ((c : Thread nD τ).loc main_arg1)) := (Carried.graph_at2 m ρ c 1).trans (dst1 m ρ c)
theorem wgt2 : W2 m ρ c (Proc.devRef .tc main_v27) = val_main_v28 (F := Ideal) (m ((c : Thread nD τ).loc main_arg1)) := (Carried.graph_at2 m ρ c 2).trans (wgt1 m ρ c)
theorem src5 : W5 m ρ c (Proc.devRef .tc main_v5) = val_main_v6 (F := Ideal) (m ((c : Thread nD τ).loc main_arg1)) := (Carried.graph_at5 m ρ c 0).trans (src1 m ρ c)
theorem dst5 : W5 m ρ c (Proc.devRef .tc main_v7) = val_main_v8 (F := Ideal) (m ((c : Thread nD τ).loc main_arg1)) := (Carried.graph_at5 m ρ c 1).trans (dst1 m ρ c)
theorem wgt5 : W5 m ρ c (Proc.devRef .tc main_v27) = val_main_v28 (F := Ideal) (m ((c : Thread nD τ).loc main_arg1)) := (Carried.graph_at5 m ρ c 2).trans (wgt1 m ρ c)
theorem src8 : W8 m ρ c (Proc.devRef .tc main_v5) = val_main_v6 (F := Ideal) (m ((c : Thread nD τ).loc main_arg1)) := (Carried.graph_at8 m ρ c 0).trans (src1 m ρ c)
theorem dst8 : W8 m ρ c (Proc.devRef .tc main_v7) = val_main_v8 (F := Ideal) (m ((c : Thread nD τ).loc main_arg1)) := (Carried.graph_at8 m ρ c 1).trans (dst1 m ρ c)
theorem wgt8 : W8 m ρ c (Proc.devRef .tc main_v27) = val_main_v28 (F := Ideal) (m ((c : Thread nD τ).loc main_arg1)) := (Carried.graph_at8 m ρ c 2).trans (wgt1 m ρ c)

/-- The first region's output is the reference's first matrix product. -/
theorem prod2 : W2 m ρ c (Proc.devRef .tc main_v28) = val_main_v4 (F := Ideal) (m ((c : Thread nD τ).loc main_arg0)) (m ((c : Thread nD τ).loc main_arg3)) :=
  (W2_arr m ρ c 2).trans ((MatmulRows0.array_eq_sum (V1 m ρ) c _ _ (Carried.arg_at1 m ρ c 0) (Carried.arg_at1 m ρ c 3)).trans
    (Cert.ReferenceIdeal.Forms.product_apply (m ((c : Thread nD τ).loc main_arg0)) (m ((c : Thread nD τ).loc main_arg3))).symm)

/-! ## Layer 1 -/

set_option maxHeartbeats 4000000 in
/-- Gather along the edges, weight, scatter-add onto the targets: the reference's aggregated array of this layer. -/
theorem agg3 : W3 m ρ c (Proc.devRef .tc main_v41) = val_main_v41 (F := Ideal) (m ((c : Thread nD τ).loc main_arg0)) (m ((c : Thread nD τ).loc main_arg1)) (m ((c : Thread nD τ).loc main_arg3)) := by
  show StableHlo.after hostOps1 (W2 m ρ c) (Proc.devRef .tc main_v41) = _
  after_results_simp
  rw [prod2 m ρ c, src2 m ρ c, dst2 m ρ c, wgt2 m ρ c]
  rfl

set_option maxHeartbeats 4000000 in
/-- The layer's bias vector, held as one row: entry (0, q) is the vector's entry q. -/
theorem bias3 (q : Fin 128) : (W3 m ρ c (Proc.devRef .tc main_v42) : S1x128.Idx → EReal) (ix2 (0 : Fin 1) q) = (m ((c : Thread nD τ).loc main_arg4)) (ix1 q) := by
  show StableHlo.after hostOps1 (W2 m ρ c) (Proc.devRef .tc main_v42) (ix2 (0 : Fin 1) q) = _
  after_results_simp
  show shapeCast S1x128 (W2 m ρ c (Proc.devRef .tc main_arg4)) Gen.shapeCasts_S128_S1x128 (ix2 (0 : Fin 1) q) = _
  rw [shapeCast_a_1a_apply]
  exact congrFun (Carried.arg_at2 m ρ c 4) (ix1 q)

set_option maxHeartbeats 4000000 in
/-- The layer's gain vector, held as one row: entry (0, q) is the vector's entry q. -/
theorem gain3 (q : Fin 128) : (W3 m ρ c (Proc.devRef .tc main_v43) : S1x128.Idx → EReal) (ix2 (0 : Fin 1) q) = (m ((c : Thread nD τ).loc main_arg13)) (ix1 q) := by
  show StableHlo.after hostOps1 (W2 m ρ c) (Proc.devRef .tc main_v43) (ix2 (0 : Fin 1) q) = _
  after_results_simp
  show shapeCast S1x128 (W2 m ρ c (Proc.devRef .tc main_arg13)) Gen.shapeCasts_S128_S1x128 (ix2 (0 : Fin 1) q) = _
  rw [shapeCast_a_1a_apply]
  exact congrFun (Carried.arg_at2 m ρ c 13) (ix1 q)

set_option maxHeartbeats 4000000 in
/-- The layer's shift vector, held as one row: entry (0, q) is the vector's entry q. -/
theorem shift3 (q : Fin 128) : (W3 m ρ c (Proc.devRef .tc main_v44) : S1x128.Idx → EReal) (ix2 (0 : Fin 1) q) = (m ((c : Thread nD τ).loc main_arg14)) (ix1 q) := by
  show StableHlo.after hostOps1 (W2 m ρ c) (Proc.devRef .tc main_v44) (ix2 (0 : Fin 1) q) = _
  after_results_simp
  show shapeCast S1x128 (W2 m ρ c (Proc.devRef .tc main_arg14)) Gen.shapeCasts_S128_S1x128 (ix2 (0 : Fin 1) q) = _
  rw [shapeCast_a_1a_apply]
  exact congrFun (Carried.arg_at2 m ρ c 14) (ix1 q)

set_option maxHeartbeats 4000000 in
/-- The layer's mean vector, held as one row: entry (0, q) is the vector's entry q. -/
theorem mean3 (q : Fin 128) : (W3 m ρ c (Proc.devRef .tc main_v45) : S1x128.Idx → EReal) (ix2 (0 : Fin 1) q) = (m ((c : Thread nD τ).loc main_arg15)) (ix1 q) := by
  show StableHlo.after hostOps1 (W2 m ρ c) (Proc.devRef .tc main_v45) (ix2 (0 : Fin 1) q) = _
  after_results_simp
  show shapeCast S1x128 (W2 m ρ c (Proc.devRef .tc main_arg15)) Gen.shapeCasts_S128_S1x128 (ix2 (0 : Fin 1) q) = _
  rw [shapeCast_a_1a_apply]
  exact congrFun (Carried.arg_at2 m ρ c 15) (ix1 q)

set_option maxHeartbeats 4000000 in
/-- The layer's var vector, held as one row: entry (0, q) is the vector's entry q. -/
theorem var3 (q : Fin 128) : (W3 m ρ c (Proc.devRef .tc main_v46) : S1x128.Idx → EReal) (ix2 (0 : Fin 1) q) = (m ((c : Thread nD τ).loc main_arg16)) (ix1 q) := by
  show StableHlo.after hostOps1 (W2 m ρ c) (Proc.devRef .tc main_v46) (ix2 (0 : Fin 1) q) = _
  after_results_simp
  show shapeCast S1x128 (W2 m ρ c (Proc.devRef .tc main_arg16)) Gen.shapeCasts_S128_S1x128 (ix2 (0 : Fin 1) q) = _
  rw [shapeCast_a_1a_apply]
  exact congrFun (Carried.arg_at2 m ρ c 16) (ix1 q)

/-- The region's bias + batch norm + ReLU of the aggregated array is the reference's activation of this layer. -/
theorem act4 : W4 m ρ c (Proc.devRef .tc main_v47) = val_main_v60 (F := Ideal) (m ((c : Thread nD τ).loc main_arg0)) (m ((c : Thread nD τ).loc main_arg1)) (m ((c : Thread nD τ).loc main_arg3)) (m ((c : Thread nD τ).loc main_arg4)) (m ((c : Thread nD τ).loc main_arg13)) (m ((c : Thread nD τ).loc main_arg14)) (m ((c : Thread nD τ).loc main_arg15)) (m ((c : Thread nD τ).loc main_arg16)) := by
  refine (W4_arr m ρ c 6).trans ((NormRelu1.array_eq (V3 m ρ) c).trans ?_)
  rw [Cert.ReferenceIdeal.Forms.stage60]
  funext i
  obtain ⟨p, q, rfl⟩ : ∃ (p : Fin 50000) (q : Fin 128), i = ix2 p q := ⟨i 0, i 1, eq_ix2 i⟩
  exact (NormRelu1.entry_congr (congrFun (agg3 m ρ c) (ix2 p q)) (bias3 m ρ c q) (gain3 m ρ c q) (shift3 m ρ c q)
    (mean3 m ρ c q) (var3 m ρ c q)).trans (Cert.ReferenceIdeal.Forms.normRelu_apply _ _ _ _ _ _ p q).symm

/-- The next region's matrix product of that activation by the next layer's weights. -/
theorem prod5 : W5 m ρ c (Proc.devRef .tc main_v48) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg16)) := by
  refine (W5_arr m ρ c 2).trans ((MatmulRows2.array_eq_sum (V4 m ρ) c _ _ (act4 m ρ c) (Carried.arg_at4 m ρ c 5)).trans ?_)
  rw [Cert.ReferenceIdeal.Forms.stage61]
  exact (Cert.ReferenceIdeal.Forms.product_apply _ _).symm

/-! ## Layer 2 -/

set_option maxHeartbeats 4000000 in
/-- Gather along the edges, weight, scatter-add onto the targets: the reference's aggregated array of this layer. -/
theorem agg6 : W6 m ρ c (Proc.devRef .tc main_v61) = val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg13)) (m ((c : Thread nD τ).loc main_arg14)) (m ((c : Thread nD τ).loc main_arg15)) (m ((c : Thread nD τ).loc main_arg16)) := by
  show StableHlo.after hostOps3 (W5 m ρ c) (Proc.devRef .tc main_v61) = _
  after_results_simp
  rw [prod5 m ρ c, src5 m ρ c, dst5 m ρ c, wgt5 m ρ c]
  rfl

set_option maxHeartbeats 4000000 in
/-- The layer's bias vector, held as one row: entry (0, q) is the vector's entry q. -/
theorem bias6 (q : Fin 128) : (W6 m ρ c (Proc.devRef .tc main_v62) : S1x128.Idx → EReal) (ix2 (0 : Fin 1) q) = (m ((c : Thread nD τ).loc main_arg6)) (ix1 q) := by
  show StableHlo.after hostOps3 (W5 m ρ c) (Proc.devRef .tc main_v62) (ix2 (0 : Fin 1) q) = _
  after_results_simp
  show shapeCast S1x128 (W5 m ρ c (Proc.devRef .tc main_arg6)) Gen.shapeCasts_S128_S1x128 (ix2 (0 : Fin 1) q) = _
  rw [shapeCast_a_1a_apply]
  exact congrFun (Carried.arg_at5 m ρ c 6) (ix1 q)

set_option maxHeartbeats 4000000 in
/-- The layer's gain vector, held as one row: entry (0, q) is the vector's entry q. -/
theorem gain6 (q : Fin 128) : (W6 m ρ c (Proc.devRef .tc main_v63) : S1x128.Idx → EReal) (ix2 (0 : Fin 1) q) = (m ((c : Thread nD τ).loc main_arg17)) (ix1 q) := by
  show StableHlo.after hostOps3 (W5 m ρ c) (Proc.devRef .tc main_v63) (ix2 (0 : Fin 1) q) = _
  after_results_simp
  show shapeCast S1x128 (W5 m ρ c (Proc.devRef .tc main_arg17)) Gen.shapeCasts_S128_S1x128 (ix2 (0 : Fin 1) q) = _
  rw [shapeCast_a_1a_apply]
  exact congrFun (Carried.arg_at5 m ρ c 17) (ix1 q)

set_option maxHeartbeats 4000000 in
/-- The layer's shift vector, held as one row: entry (0, q) is the vector's entry q. -/
theorem shift6 (q : Fin 128) : (W6 m ρ c (Proc.devRef .tc main_v64) : S1x128.Idx → EReal) (ix2 (0 : Fin 1) q) = (m ((c : Thread nD τ).loc main_arg18)) (ix1 q) := by
  show StableHlo.after hostOps3 (W5 m ρ c) (Proc.devRef .tc main_v64) (ix2 (0 : Fin 1) q) = _
  after_results_simp
  show shapeCast S1x128 (W5 m ρ c (Proc.devRef .tc main_arg18)) Gen.shapeCasts_S128_S1x128 (ix2 (0 : Fin 1) q) = _
  rw [shapeCast_a_1a_apply]
  exact congrFun (Carried.arg_at5 m ρ c 18) (ix1 q)

set_option maxHeartbeats 4000000 in
/-- The layer's mean vector, held as one row: entry (0, q) is the vector's entry q. -/
theorem mean6 (q : Fin 128) : (W6 m ρ c (Proc.devRef .tc main_v65) : S1x128.Idx → EReal) (ix2 (0 : Fin 1) q) = (m ((c : Thread nD τ).loc main_arg19)) (ix1 q) := by
  show StableHlo.after hostOps3 (W5 m ρ c) (Proc.devRef .tc main_v65) (ix2 (0 : Fin 1) q) = _
  after_results_simp
  show shapeCast S1x128 (W5 m ρ c (Proc.devRef .tc main_arg19)) Gen.shapeCasts_S128_S1x128 (ix2 (0 : Fin 1) q) = _
  rw [shapeCast_a_1a_apply]
  exact congrFun (Carried.arg_at5 m ρ c 19) (ix1 q)

set_option maxHeartbeats 4000000 in
/-- The layer's var vector, held as one row: entry (0, q) is the vector's entry q. -/
theorem var6 (q : Fin 128) : (W6 m ρ c (Proc.devRef .tc main_v66) : S1x128.Idx → EReal) (ix2 (0 : Fin 1) q) = (m ((c : Thread nD τ).loc main_arg20)) (ix1 q) := by
  show StableHlo.after hostOps3 (W5 m ρ c) (Proc.devRef .tc main_v66) (ix2 (0 : Fin 1) q) = _
  after_results_simp
  show shapeCast S1x128 (W5 m ρ c (Proc.devRef .tc main_arg20)) Gen.shapeCasts_S128_S1x128 (ix2 (0 : Fin 1) q) = _
  rw [shapeCast_a_1a_apply]
  exact congrFun (Carried.arg_at5 m ρ c 20) (ix1 q)

/-- The region's bias + batch norm + ReLU of the aggregated array is the reference's activation of this layer. -/
theorem act7 : W7 m ρ c (Proc.devRef .tc main_v67) = val_main_v117 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W7_arr m ρ c 6).trans ((NormRelu3.array_eq (V6 m ρ) c).trans ?_)
  rw [Cert.ReferenceIdeal.Forms.stage117]
  funext i
  obtain ⟨p, q, rfl⟩ : ∃ (p : Fin 50000) (q : Fin 128), i = ix2 p q := ⟨i 0, i 1, eq_ix2 i⟩
  exact (NormRelu3.entry_congr (congrFun (agg6 m ρ c) (ix2 p q)) (bias6 m ρ c q) (gain6 m ρ c q) (shift6 m ρ c q)
    (mean6 m ρ c q) (var6 m ρ c q)).trans (Cert.ReferenceIdeal.Forms.normRelu_apply _ _ _ _ _ _ p q).symm

/-- The next region's matrix product of that activation by the next layer's weights. -/
theorem prod8 : W8 m ρ c (Proc.devRef .tc main_v68) = val_main_v118 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  refine (W8_arr m ρ c 2).trans ((MatmulRows4.array_eq_sum (V7 m ρ) c _ _ (act7 m ρ c) (Carried.arg_at7 m ρ c 7)).trans ?_)
  rw [Cert.ReferenceIdeal.Forms.stage118]
  exact (Cert.ReferenceIdeal.Forms.product_apply _ _).symm

/-! ## Layer 3 -/

set_option maxHeartbeats 4000000 in
/-- Gather along the edges, weight, scatter-add onto the targets: the reference's aggregated array of this layer. -/
theorem agg9 : W9 m ρ c (Proc.devRef .tc main_v81) = val_main_v155 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  show StableHlo.after hostOps5 (W8 m ρ c) (Proc.devRef .tc main_v81) = _
  after_results_simp
  rw [prod8 m ρ c, src8 m ρ c, dst8 m ρ c, wgt8 m ρ c]
  rfl

set_option maxHeartbeats 4000000 in
/-- The layer's bias vector, held as one row: entry (0, q) is the vector's entry q. -/
theorem bias9 (q : Fin 128) : (W9 m ρ c (Proc.devRef .tc main_v82) : S1x128.Idx → EReal) (ix2 (0 : Fin 1) q) = (m ((c : Thread nD τ).loc main_arg8)) (ix1 q) := by
  show StableHlo.after hostOps5 (W8 m ρ c) (Proc.devRef .tc main_v82) (ix2 (0 : Fin 1) q) = _
  after_results_simp
  show shapeCast S1x128 (W8 m ρ c (Proc.devRef .tc main_arg8)) Gen.shapeCasts_S128_S1x128 (ix2 (0 : Fin 1) q) = _
  rw [shapeCast_a_1a_apply]
  exact congrFun (Carried.arg_at8 m ρ c 8) (ix1 q)

set_option maxHeartbeats 4000000 in
/-- The layer's gain vector, held as one row: entry (0, q) is the vector's entry q. -/
theorem gain9 (q : Fin 128) : (W9 m ρ c (Proc.devRef .tc main_v83) : S1x128.Idx → EReal) (ix2 (0 : Fin 1) q) = (m ((c : Thread nD τ).loc main_arg21)) (ix1 q) := by
  show StableHlo.after hostOps5 (W8 m ρ c) (Proc.devRef .tc main_v83) (ix2 (0 : Fin 1) q) = _
  after_results_simp
  show shapeCast S1x128 (W8 m ρ c (Proc.devRef .tc main_arg21)) Gen.shapeCasts_S128_S1x128 (ix2 (0 : Fin 1) q) = _
  rw [shapeCast_a_1a_apply]
  exact congrFun (Carried.arg_at8 m ρ c 21) (ix1 q)

set_option maxHeartbeats 4000000 in
/-- The layer's shift vector, held as one row: entry (0, q) is the vector's entry q. -/
theorem shift9 (q : Fin 128) : (W9 m ρ c (Proc.devRef .tc main_v84) : S1x128.Idx → EReal) (ix2 (0 : Fin 1) q) = (m ((c : Thread nD τ).loc main_arg22)) (ix1 q) := by
  show StableHlo.after hostOps5 (W8 m ρ c) (Proc.devRef .tc main_v84) (ix2 (0 : Fin 1) q) = _
  after_results_simp
  show shapeCast S1x128 (W8 m ρ c (Proc.devRef .tc main_arg22)) Gen.shapeCasts_S128_S1x128 (ix2 (0 : Fin 1) q) = _
  rw [shapeCast_a_1a_apply]
  exact congrFun (Carried.arg_at8 m ρ c 22) (ix1 q)

set_option maxHeartbeats 4000000 in
/-- The layer's mean vector, held as one row: entry (0, q) is the vector's entry q. -/
theorem mean9 (q : Fin 128) : (W9 m ρ c (Proc.devRef .tc main_v85) : S1x128.Idx → EReal) (ix2 (0 : Fin 1) q) = (m ((c : Thread nD τ).loc main_arg23)) (ix1 q) := by
  show StableHlo.after hostOps5 (W8 m ρ c) (Proc.devRef .tc main_v85) (ix2 (0 : Fin 1) q) = _
  after_results_simp
  show shapeCast S1x128 (W8 m ρ c (Proc.devRef .tc main_arg23)) Gen.shapeCasts_S128_S1x128 (ix2 (0 : Fin 1) q) = _
  rw [shapeCast_a_1a_apply]
  exact congrFun (Carried.arg_at8 m ρ c 23) (ix1 q)

set_option maxHeartbeats 4000000 in
/-- The layer's var vector, held as one row: entry (0, q) is the vector's entry q. -/
theorem var9 (q : Fin 128) : (W9 m ρ c (Proc.devRef .tc main_v86) : S1x128.Idx → EReal) (ix2 (0 : Fin 1) q) = (m ((c : Thread nD τ).loc main_arg24)) (ix1 q) := by
  show StableHlo.after hostOps5 (W8 m ρ c) (Proc.devRef .tc main_v86) (ix2 (0 : Fin 1) q) = _
  after_results_simp
  show shapeCast S1x128 (W8 m ρ c (Proc.devRef .tc main_arg24)) Gen.shapeCasts_S128_S1x128 (ix2 (0 : Fin 1) q) = _
  rw [shapeCast_a_1a_apply]
  exact congrFun (Carried.arg_at8 m ρ c 24) (ix1 q)

/-- The region's bias + batch norm + ReLU of the aggregated array is the reference's activation of this layer. -/
theorem act10 : W10 m ρ c (Proc.devRef .tc main_v87) = val_main_v174 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  refine (W10_arr m ρ c 6).trans ((NormRelu5.array_eq (V9 m ρ) c).trans ?_)
  rw [Cert.ReferenceIdeal.Forms.stage174]
  funext i
  obtain ⟨p, q, rfl⟩ : ∃ (p : Fin 50000) (q : Fin 128), i = ix2 p q := ⟨i 0, i 1, eq_ix2 i⟩
  exact (NormRelu5.entry_congr (congrFun (agg9 m ρ c) (ix2 p q)) (bias9 m ρ c q) (gain9 m ρ c q) (shift9 m ρ c q)
    (mean9 m ρ c q) (var9 m ρ c q)).trans (Cert.ReferenceIdeal.Forms.normRelu_apply _ _ _ _ _ _ p q).symm

/-! ## Pooling, the head, the result -/

set_option maxHeartbeats 4000000 in
/-- Sum the last layer's activations over each graph, count each graph's nodes, divide: the reference's pooled features. -/
theorem pool11 : W11 m ρ c (Proc.devRef .tc main_v99) = val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  have h2 : W10 m ρ c (Proc.devRef .tc main_arg2) = (m ((c : Thread nD τ).loc main_arg2)) := Carried.arg_at10 m ρ c 2
  show StableHlo.after hostOps6 (W10 m ρ c) (Proc.devRef .tc main_v99) = _
  after_results_simp
  rw [act10 m ρ c, h2]
  rfl

set_option maxHeartbeats 4000000 in
/-- The head's first bias vector, held as one row. -/
theorem hbias11 (q : Fin 32) : (W11 m ρ c (Proc.devRef .tc main_v100) : S1x32.Idx → EReal) (ix2 (0 : Fin 1) q) = (m ((c : Thread nD τ).loc main_arg10)) (ix1 q) := by
  show StableHlo.after hostOps6 (W10 m ρ c) (Proc.devRef .tc main_v100) (ix2 (0 : Fin 1) q) = _
  after_results_simp
  show shapeCast S1x32 (W10 m ρ c (Proc.devRef .tc main_arg10)) Gen.shapeCasts_S32_S1x32 (ix2 (0 : Fin 1) q) = _
  rw [shapeCast_a_1a_apply]
  exact congrFun (Carried.arg_at10 m ρ c 10) (ix1 q)

set_option maxHeartbeats 4000000 in
/-- The head's second bias, a single number, held as a one-by-one array. -/
theorem obias11 (q : Fin 1) : (W11 m ρ c (Proc.devRef .tc main_v101) : S1x1.Idx → EReal) (ix2 (0 : Fin 1) q) = (m ((c : Thread nD τ).loc main_arg12)) (ix1 q) := by
  show StableHlo.after hostOps6 (W10 m ρ c) (Proc.devRef .tc main_v101) (ix2 (0 : Fin 1) q) = _
  after_results_simp
  show shapeCast S1x1 (W10 m ρ c (Proc.devRef .tc main_arg12)) Gen.shapeCasts_S1_S1x1 (ix2 (0 : Fin 1) q) = _
  rw [shapeCast_a_1a_apply]
  exact congrFun (Carried.arg_at10 m ρ c 12) (ix1 q)

/-- The head region's output is the reference's two dense layers of the pooled features. -/
theorem head12 : W12 m ρ c (Proc.devRef .tc main_v102) = val_main_v195 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  have h9 : V11 m ρ c main_arg9 = (m ((c : Thread nD τ).loc main_arg9)) := Carried.arg_at11 m ρ c 9
  have h11 : V11 m ρ c main_arg11 = (m ((c : Thread nD τ).loc main_arg11)) := Carried.arg_at11 m ρ c 11
  have hp : V11 m ρ c main_v99 = val_main_v186 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := pool11 m ρ c
  refine (W12_arr m ρ c 5).trans ((Head.array_eq (V11 m ρ) c).trans ?_)
  rw [Cert.ReferenceIdeal.Forms.stage195]
  refine (HeadValue.payload_eq (V11 m ρ c main_v99) (V11 m ρ c main_arg9) (V11 m ρ c main_v100) (V11 m ρ c main_arg11) (V11 m ρ c main_v101)
    (m ((c : Thread nD τ).loc main_arg10)) (m ((c : Thread nD τ).loc main_arg12)) (hbias11 m ρ c) (obias11 m ρ c)
    Cert.ReferenceIdeal.Facts₀.bcast_S32_S1x32_1 Cert.ReferenceIdeal.Facts₀.bcast_S1x32_S2000x32_0_1 Cert.ReferenceIdeal.Facts₀.bcast_S_S2000x32 Cert.ReferenceIdeal.Facts₀.bcast_S1_S1x1_1 Cert.ReferenceIdeal.Facts₀.bcast_S1x1_S2000x1_0_1).trans ?_
  rw [hp, h9, h11]
  rfl

set_option maxHeartbeats 4000000 in
/-- THE RESULT BUFFER at the last boundary: the reference's result of the launch arguments. -/
theorem result13 : W13 m ρ c (Proc.devRef .tc main_v103) = val_main_v196 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  show StableHlo.after hostOps7 (W12 m ρ c) (Proc.devRef .tc main_v103) = _
  after_results_simp
  rw [head12 m ρ c]
  rfl

end Cert.KernelIdeal.Boundaries

end
-- ==== Proof.lean ====
/-
  The certificate of a three-layer graph convolution network with batch norm, mean pooling and a two-layer head.

  Both programs compute, for node features x, an edge list, a graph assignment and the layers' parameters:
  three times  h ← max((((Â (h · W) + b) − mean) · rsqrt(var + ε)) · gain + shift, 0),  where Â gathers each edge's source
  row, scales it by the edge's weight 1/√(deg(src) · deg(dst)) (self loops appended, degrees counted on the targets) and
  adds it into the target's row; then the mean of h over each graph's nodes; then  (max(p · W₁ + b₁, 0)) · W₂ + b₂.
  The kernel computes the edge weights once and runs the dense parts — the three matrix products in ten row blocks
  each, the three bias + batch norm + ReLU maps in ten row blocks each, and the head — as seven kernel regions whose
  matrix products go through bf16 casts; the reference is plain array code that recomputes the edge weights per layer.

  On the extended reals a change of float format is the identity, a matrix product into a zero accumulator is the plain
  sum over the contracted index, and a row block of a product is the product of the row block; every other operation is
  literally the same in both programs.  So the two results are equal for ALL inputs (no finiteness is used): the
  kernel's buffers are followed boundary by boundary (Proof/Boundaries.lean) and each holds the reference's stage of the
  same arguments.  The word-level kernel is its own idealization (the ideal pass rewrote nothing), and the three frame
  claims are the generated frames and the reference's generated run.
-/
import proofs.«111725_j67250597921402_1_alg».proof.Defs
import proofs.«111725_j67250597921402_1_alg».proof.Proof.Gen.Kernel
import proofs.«111725_j67250597921402_1_alg».proof.Proof.Gen.Kernel.Skeleton
import proofs.«111725_j67250597921402_1_alg».proof.Proof.Gen.Kernel.Launch
import proofs.«111725_j67250597921402_1_alg».proof.Proof.Gen.Kernel.Points
import proofs.«111725_j67250597921402_1_alg».proof.Proof.Gen.Kernel.Frame
import proofs.«111725_j67250597921402_1_alg».proof.Proof.Gen.KernelIdeal
import proofs.«111725_j67250597921402_1_alg».proof.Proof.Gen.KernelIdeal.Skeleton
import proofs.«111725_j67250597921402_1_alg».proof.Proof.Gen.KernelIdeal.Launch
import proofs.«111725_j67250597921402_1_alg».proof.Proof.Gen.KernelIdeal.Points
import proofs.«111725_j67250597921402_1_alg».proof.Proof.Gen.KernelIdeal.Frame
import proofs.«111725_j67250597921402_1_alg».proof.Proof.Gen.ReferenceIdeal
import proofs.«111725_j67250597921402_1_alg».proof.Proof.Gen.Pre_finite_inputs
import proofs.«111725_j67250597921402_1_alg».proof.Proof.Gen.ReferenceIdeal.Run
import proofs.«111725_j67250597921402_1_alg».proof.Proof.Gen.ReferenceIdeal.Read
import proofs.«111725_j67250597921402_1_alg».proof.Proof.ResultRun
import proofs.«111725_j67250597921402_1_alg».proof.Proof.Boundaries
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the twenty-five arguments both programs run, and the kernel's result buffer — the last
    boundary's contents — is the reference's result: the reference's stage of the kernel's arguments, which are the
    reference's own. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v103),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24⟩ := hagree c
  rw [Cert.ReferenceIdeal.Read.val_main_v196_eq, h0, h1, h2, h3, h4, h5, h6, h7, h8, h9, h10, h11, h12, h13, h14, h15, h16, h17, h18, h19, h20, h21, h22, h23, h24]
  exact (Cert.KernelIdeal.Boundaries.result13 m ρ c).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
